-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S384x128 : Shape := ⟨2, ![384, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S2x1600000 : S_.BroadcastsInDim S2x1600000 (![] : Fin 0 → Fin S2x1600000.rank)
  reducesTo_S2x1600000_S_d0_1 : S2x1600000.ReducesTo [0, 1] S_

variable [Facts]

def fn_part3 {F : FTy → Type} [FloatOps F] (main_arg1 : IVec S2x1600000 32) (main_arg12 : FVec F S384x128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S384x128 .f32 := Host.absf main_arg12
  let main_cst_20 : FVec F S_ .f32 := constant S_ .f32 0x7F800000#32
  let main_v55 : FVec F S384x128 .f32 := broadcastInDim S384x128 ![] bcast_S_S384x128 main_cst_20
  let main_v56 : IVec S384x128 1 := cmpf .olt main_v54 main_v55
  let main_c_21 : IVec S_ 1 := constantI S_ 1 1#1
  let main_v57 : IVec S_ 1 := (fun x v => Host.reduce IntOp.andi x v reducesTo_S384x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_c_24 : IVec S_ 32 := constantI S_ 32 0#32
  let main_v64 : IVec S2x1600000 32 := broadcastInDim S2x1600000 ![] bcast_S_S2x1600000 main_c_24
  let main_v65 : IVec S2x1600000 1 := cmpi .sge main_arg1 main_v64
  let main_c_25 : IVec S_ 1 := constantI S_ 1 1#1
  let main_v66 : IVec S_ 1 := (fun x v => Host.reduce IntOp.andi x v reducesTo_S2x1600000_S_d0_1 h_S_) main_v65 main_c_25
  let main_v67 : IVec S_ 1 := andi main_v63 main_v66
  main_v67

def fn_part2 {F : FTy → Type} [FloatOps F] (main_arg1 : IVec S2x1600000 32) (main_arg8 : FVec F S384x128 .f32) (main_arg9 : FVec F S128 .f32) (main_arg10 : FVec F S384x128 .f32) (main_arg11 : FVec F S128 .f32) (main_arg12 : FVec F S384x128 .f32) (main_arg13 : FVec F S128 .f32) (main_v33 : IVec S_ 1) : IVec S_ 1 :=
  let main_v34 : FVec F S384x128 .f32 := Host.absf main_arg8
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S384x128 .f32 := Host.absf main_arg10
  let main_cst_16 : FVec F S_ .f32 := constant S_ .f32 0x7F800000#32
  let main_v45 : FVec F S384x128 .f32 := broadcastInDim S384x128 ![] bcast_S_S384x128 main_cst_16
  let main_v46 : IVec S384x128 1 := cmpf .olt main_v44 main_v45
  let main_c_17 : IVec S_ 1 := constantI S_ 1 1#1
  let main_v47 : IVec S_ 1 := (fun x v => Host.reduce IntOp.andi x v reducesTo_S384x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_arg12 main_arg13 main_v48 main_v49 main_v50

def fn_part1 {F : FTy → Type} [FloatOps F] (main_arg1 : IVec S2x1600000 32) (main_arg5 : FVec F S128 .f32) (main_arg6 : FVec F S128x128 .f32) (main_arg7 : FVec F S128 .f32) (main_arg8 : FVec F S384x128 .f32) (main_arg9 : FVec F S128 .f32) (main_arg10 : FVec F S384x128 .f32) (main_arg11 : FVec F S128 .f32) (main_arg12 : FVec F S384x128 .f32) (main_arg13 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S50000x128 .f32) (main_arg1 : IVec S2x1600000 32) (main_arg2 : FVec F S1600000 .f32) (main_arg3 : FVec F S50000x128 .f32) (main_arg4 : FVec F S128x128 .f32) (main_arg5 : FVec F S128 .f32) (main_arg6 : FVec F S128x128 .f32) (main_arg7 : FVec F S128 .f32) (main_arg8 : FVec F S384x128 .f32) (main_arg9 : FVec F S128 .f32) (main_arg10 : FVec F S384x128 .f32) (main_arg11 : FVec F S128 .f32) (main_arg12 : FVec F S384x128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S50000x128 .f32 := Host.absf main_arg3
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_arg11 main_arg12 main_arg13 main_v13 main_v16
-- ==== Kernel.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S384x128 : Shape := ⟨2, ![384, 128]⟩
abbrev S1x1600000 : Shape := ⟨2, ![1, 1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1x128 : Shape := ⟨2, ![1, 128]⟩
abbrev S2000x128 : Shape := ⟨2, ![2000, 128]⟩
abbrev S1600000x128 : Shape := ⟨2, ![1600000, 128]⟩
abbrev S2000x1 : Shape := ⟨2, ![2000, 1]⟩

abbrev nBuf : Space → Nat
  | .hbm => 98
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000, .f32⟩
  | .hbm, ⟨3, _⟩ => ⟨S50000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S384x128, .f32⟩
  | .hbm, ⟨9, _⟩ => ⟨S128, .f32⟩
  | .hbm, ⟨10, _⟩ => ⟨S384x128, .f32⟩
  | .hbm, ⟨11, _⟩ => ⟨S128, .f32⟩
  | .hbm, ⟨12, _⟩ => ⟨S384x128, .f32⟩
  | .hbm, ⟨13, _⟩ => ⟨S128, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .f32⟩
  | .hbm, ⟨19, _⟩ => ⟨S50000, .f32⟩
  | .hbm, ⟨20, _⟩ => ⟨S1600000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S50000x1, .f32⟩
  | .hbm, ⟨47, _⟩ => ⟨S1x128, .f32⟩
  | .hbm, ⟨48, _⟩ => ⟨S1x128, .f32⟩
  | .hbm, ⟨49, _⟩ => ⟨S50000x128, .bf16⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .bf16⟩
  | .hbm, ⟨59, _⟩ => ⟨S1600000x128, .f32⟩
  | .hbm, ⟨60, _⟩ => ⟨S1600000x1, .f32⟩
  | .hbm, ⟨61, _⟩ => ⟨S1600000x128, .f32⟩
  | .hbm, ⟨62, _⟩ => ⟨S1600000x128, .f32⟩
  | .hbm, ⟨63, _⟩ => ⟨S_, .f32⟩
  | .hbm, ⟨64, _⟩ => ⟨S50000x128, .f32⟩
  | .hbm, ⟨65, _⟩ => ⟨S1600000x1, .i32⟩
  | .hbm, ⟨66, _⟩ => ⟨S50000x128, .f32⟩
  | .hbm, ⟨67, _⟩ => ⟨S50000x128, .bf16⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .bf16⟩
  | .hbm, ⟨77, _⟩ => ⟨S1600000x128, .f32⟩
  | .hbm, ⟨78, _⟩ => ⟨S1600000x1, .f32⟩
  | .hbm, ⟨79, _⟩ => ⟨S1600000x128, .f32⟩
  | .hbm, ⟨80, _⟩ => ⟨S1600000x128, .f32⟩
  | .hbm, ⟨81, _⟩ => ⟨S_, .f32⟩
  | .hbm, ⟨82, _⟩ => ⟨S50000x128, .f32⟩
  | .hbm, ⟨83, _⟩ => ⟨S1600000x1, .i32⟩
  | .hbm, ⟨84, _⟩ => ⟨S50000x128, .f32⟩
  | .hbm, ⟨85, _⟩ => ⟨S128x128, .f32⟩
  | .hbm, ⟨86, _⟩ => ⟨S128x128, .f32⟩
  | .hbm, ⟨87, _⟩ => ⟨S128x128, .f32⟩
  | .hbm, ⟨88, _⟩ => ⟨S128x128, .f32⟩
  | .hbm, ⟨89, _⟩ => ⟨S128x128, .f32⟩
  | .hbm, ⟨90, _⟩ => ⟨S128x128, .f32⟩
  | .hbm, ⟨91, _⟩ => ⟨S128x128, .f32⟩
  | .hbm, ⟨92, _⟩ => ⟨S128x128, .f32⟩
  | .hbm, ⟨93, _⟩ => ⟨S128x128, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .bf16⟩
  | .local _ .vmem, ⟨4, _⟩ => ⟨S2000x128, .bf16⟩
  | .local _ .vmem, ⟨5, _⟩ => ⟨S2000x128, .f32⟩
  | .local _ .vmem, ⟨6, _⟩ => ⟨S2000x128, .f32⟩
  | .local _ .vmem, ⟨7, _⟩ => ⟨S2000x128, .bf16⟩
  | .local _ .vmem, ⟨8, _⟩ => ⟨S2000x128, .bf16⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S128x128, .f32⟩
  | .local _ .vmem, ⟨13, _⟩ => ⟨S2000x128, .bf16⟩
  | .local _ .vmem, ⟨14, _⟩ => ⟨S2000x128, .bf16⟩
  | .local _ .vmem, ⟨15, _⟩ => ⟨S2000x128, .f32⟩
  | .local _ .vmem, ⟨16, _⟩ => ⟨S2000x128, .f32⟩
  | .local _ .vmem, ⟨17, _⟩ => ⟨S2000x128, .bf16⟩
  | .local _ .vmem, ⟨18, _⟩ => ⟨S2000x128, .bf16⟩
  | .local _ .vmem, ⟨19, _⟩ => ⟨S2000x1, .f32⟩
  | .local _ .vmem, ⟨20, _⟩ => ⟨S2000x1, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x128, .f32⟩
  | .local _ .vmem, ⟨27, _⟩ => ⟨S128x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S128x128, .f32⟩
  | .local _ .vmem, ⟨35, _⟩ => ⟨S128x128, .f32⟩
  | .local _ .vmem, ⟨36, _⟩ => ⟨S128x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_2 : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_4 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_7 : Ref sig .tc := ⟨.hbm, 68, rfl⟩
abbrev main_v45 : Ref sig .tc := ⟨.hbm, 69, rfl⟩
abbrev main_v46 : Ref sig .tc := ⟨.hbm, 70, rfl⟩
abbrev main_c_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg10_0 : Ref sig .tc := ⟨.vmem, 30, rfl⟩
abbrev cc2_stg11_0 : Ref sig .tc := ⟨.vmem, 31, rfl⟩
abbrev cc2_stg12_0 : Ref sig .tc := ⟨.vmem, 32, rfl⟩
abbrev cc2_stg13_0 : Ref sig .tc := ⟨.vmem, 33, rfl⟩
abbrev cc2_stg14_0 : Ref sig .tc := ⟨.vmem, 34, rfl⟩
abbrev cc2_stg15_0 : Ref sig .tc := ⟨.vmem, 35, rfl⟩
abbrev cc2_stg16_0 : Ref sig .tc := ⟨.vmem, 36, rfl⟩
abbrev cc2_stg17_0 : Ref sig .tc := ⟨.vmem, 37, rfl⟩
abbrev cc2_stg18_0 : Ref sig .tc := ⟨.vmem, 38, rfl⟩
abbrev cc2_stg18_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem5_1 : DmaSem sig := 25
abbrev cc2_sem6_0 : DmaSem sig := 26
abbrev cc2_sem7_0 : DmaSem sig := 27
abbrev cc2_sem8_0 : DmaSem sig := 28
abbrev cc2_sem9_0 : DmaSem sig := 29
abbrev cc2_sem10_0 : DmaSem sig := 30
abbrev cc2_sem11_0 : DmaSem sig := 31
abbrev cc2_sem12_0 : DmaSem sig := 32
abbrev cc2_sem13_0 : DmaSem sig := 33
abbrev cc2_sem14_0 : DmaSem sig := 34
abbrev cc2_sem15_0 : DmaSem sig := 35
abbrev cc2_sem16_0 : DmaSem sig := 36
abbrev cc2_sem17_0 : DmaSem sig := 37
abbrev cc2_sem18_0 : DmaSem sig := 38
abbrev cc2_sem18_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S128x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S128x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S128x128 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S128x128 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S1x128 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 2 → Memref sig .tc .vmem S2000x128 .f32 := fun | 0 => Memref.whole cc2_stg18_0 | 1 => Memref.whole cc2_stg18_1 | ⟨_ + 2, h⟩ => absurd h (Nat.not_lt.2 (Nat.le_add_left _ _))
abbrev sem2_18 : Fin 2 → DmaSem sig := fun | 0 => cc2_sem18_0 | 1 => cc2_sem18_1 | ⟨_ + 2, h⟩ => absurd h (Nat.not_lt.2 (Nat.le_add_left _ _))
abbrev reads2_18 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  shapeCasts_S50000_S50000x1 : S50000.ShapeCasts S50000x1
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S2000x128_S2000x128_0_0 : (Rect.unit (s := S2000x128) ![0, 0] S2000x128.size inb_S2000x128_S2000x128_0_0).PackedRows (EltTy.packing .bf16)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S2000x128_S2000x128 : S2000x128.ShapeCasts S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128x128_S128x128 : S128x128.ShapeCasts S128x128
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S2000x128_S128x128_S2000x128_1_0_0_1_n_n_wf : DotDims.WF S2000x128 S128x128 S2000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .bf16 = 32 ∨ (Rect.block (s := S50000x128) S2000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .bf16 = 32 ∨ (Rect.block (s := S50000x128) S2000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .bf16 = 32 ∨ (Rect.block (s := S50000x128) S2000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x128.size a ≤ S128x128.size a
  hwx2_10 : ∀ i : grid2.Coords, EltTy.bits .f32 = 32 ∨ (Rect.block (s := S128x128) S128x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x128.size a ≤ S128x128.size a
  hwx2_11 : ∀ i : grid2.Coords, EltTy.bits .f32 = 32 ∨ (Rect.block (s := S128x128) S128x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S128x128.size a ≤ S128x128.size a
  hwx2_12 : ∀ i : grid2.Coords, EltTy.bits .f32 = 32 ∨ (Rect.block (s := S128x128) S128x128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x128.size a ≤ S1x128.size a
  hwx2_13 : ∀ i : grid2.Coords, EltTy.bits .f32 = 32 ∨ (Rect.block (s := S1x128) S1x128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S128x128.size a ≤ S128x128.size a
  hwx2_14 : ∀ i : grid2.Coords, EltTy.bits .f32 = 32 ∨ (Rect.block (s := S128x128) S128x128.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S128x128.size a ≤ S128x128.size a
  hwx2_15 : ∀ i : grid2.Coords, EltTy.bits .f32 = 32 ∨ (Rect.block (s := S128x128) S128x128.size (cc2_transform_15 i) (hinb2_15 i)).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S128x128.size a ≤ S128x128.size a
  hwx2_16 : ∀ i : grid2.Coords, EltTy.bits .f32 = 32 ∨ (Rect.block (s := S128x128) S128x128.size (cc2_transform_16 i) (hinb2_16 i)).WholeWords (EltTy.packing .f32)
  hstage2_17 : ∀ j, (stage2_17 j).IsWhole
  nbuf2_17 : grid2.bufCount reads2_17 true = 1
  hreads2_17 : ∀ i i' : grid2.Coords, (∀ a, reads2_17 a = true → i a = i' a) → cc2_transform_17 i = cc2_transform_17 i'
  hinb2_17 : ∀ (i : grid2.Coords) a, (cc2_transform_17 i a + 1) * S1x128.size a ≤ S1x128.size a
  hwx2_17 : ∀ i : grid2.Coords, EltTy.bits .f32 = 32 ∨ (Rect.block (s := S1x128) S1x128.size (cc2_transform_17 i) (hinb2_17 i)).WholeWords (EltTy.packing .f32)
  hstage2_18 : ∀ j, (stage2_18 j).IsWhole
  nbuf2_18 : grid2.bufCount reads2_18 false = 2
  hreads2_18 : ∀ i i' : grid2.Coords, (∀ a, reads2_18 a = true → i a = i' a) → cc2_transform_18 i = cc2_transform_18 i'
  hinb2_18 : ∀ (i : grid2.Coords) a, (cc2_transform_18 i a + 1) * S2000x128.size a ≤ S50000x128.size a
  hwx2_18 : ∀ i : grid2.Coords, EltTy.bits .f32 = 32 ∨ (Rect.block (s := S50000x128) S2000x128.size (cc2_transform_18 i) (hinb2_18 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v28) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg0) S2000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg3) S2000x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v59) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v60) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v61) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v68) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v62) S128x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v63) S128x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v64) S128x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v69) S1x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v65) S128x128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v66) S128x128.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_v67) S128x128.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_v70) S1x128.size cc2_transform_17 reads2_17 false true 1 stage2_17 sem2_17
    hrank2 hreads2_17 hinb2_17 nbuf2_17 (Memref.isWhole_whole _) hwx2_17 hstage2_17

abbrev win2_18 : Pipeline.Window sig grid2 :=
  Pipeline.Window.ofSpec (Memref.whole main_v71) S2000x128.size cc2_transform_18 reads2_18 true false 2 stage2_18 sem2_18
    hrank2 hreads2_18 hinb2_18 nbuf2_18 (Memref.isWhole_whole _) hwx2_18 hstage2_18

abbrev win2 : Fin 19 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | ⟨_ + 19, h⟩ => absurd h (Nat.not_lt.2 (Nat.le_add_left _ _))
abbrev spec2 : Fin 19 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S384x128 : Shape := ⟨2, ![384, 128]⟩
abbrev S1x1600000 : Shape := ⟨2, ![1, 1600000]⟩
abbrev S_ : Shape := ⟨0, ![]⟩
abbrev S50000 : Shape := ⟨1, ![50000]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩
abbrev S50000x384 : Shape := ⟨2, ![50000, 384]⟩

abbrev nBuf : Space → Nat
  | .hbm => 181
  | .vmem => 0
  | .smem => 0
  | _ => 0

abbrev hbmTy0_0 (i : Nat) : BufTy := match i % 128 with
  | 0 => ⟨S50000x128, .f32⟩
  | 1 => ⟨S2x1600000, .i32⟩
  | 2 => ⟨S1600000, .f32⟩
  | 3 => ⟨S50000x128, .f32⟩
  | 4 => ⟨S128x128, .f32⟩
  | 5 => ⟨S128, .f32⟩
  | 6 => ⟨S128x128, .f32⟩
  | 7 => ⟨S128, .f32⟩
  | 8 => ⟨S384x128, .f32⟩
  | 9 => ⟨S128, .f32⟩
  | 10 => ⟨S384x128, .f32⟩
  | 11 => ⟨S128, .f32⟩
  | 12 => ⟨S384x128, .f32⟩
  | 13 => ⟨S128, .f32⟩
  | 14 => ⟨S1x1600000, .i32⟩
  | 15 => ⟨S1600000, .i32⟩
  | 16 => ⟨S1x1600000, .i32⟩
  | 17 => ⟨S1600000, .i32⟩
  | 18 => ⟨S50000x128, .f32⟩
  | 19 => ⟨S_, .f32⟩
  | 20 => ⟨S50000, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S50000, .f32⟩
  | 30 => ⟨S50000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000, .f32⟩
  | 51 => ⟨S1600000x1, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .f32⟩
  | 61 => ⟨S1600000x128, .f32⟩
  | 62 => ⟨S1600000x128, .f32⟩
  | 63 => ⟨S_, .f32⟩
  | 64 => ⟨S50000x128, .f32⟩
  | 65 => ⟨S1600000x1, .i32⟩
  | 66 => ⟨S50000x128, .f32⟩
  | 67 => ⟨S50000, .f32⟩
  | 68 => ⟨S50000x1, .f32⟩
  | 69 => ⟨S50000x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S50000x128, .f32⟩
  | 79 => ⟨S_, .f32⟩
  | 80 => ⟨S50000, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S50000, .f32⟩
  | 90 => ⟨S50000, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000, .f32⟩
  | 100 => ⟨S1600000, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000, .f32⟩
  | 110 => ⟨S1600000, .f32⟩
  | 111 => ⟨S1600000x1, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x128, .f32⟩
  | 121 => ⟨S1600000x128, .f32⟩
  | 122 => ⟨S1600000x128, .f32⟩
  | 123 => ⟨S_, .f32⟩
  | 124 => ⟨S50000x128, .f32⟩
  | 125 => ⟨S1600000x1, .i32⟩
  | 126 => ⟨S50000x128, .f32⟩
  | 127 => ⟨S50000, .f32⟩
  | _ => ⟨S50000x128, .f32⟩

abbrev hbmTy0_1 (i : Nat) : BufTy := match i % 128 with
  | 0 => ⟨S50000x1, .f32⟩
  | 1 => ⟨S50000x128, .f32⟩
  | 2 => ⟨S50000x128, .f32⟩
  | 3 => ⟨S50000x128, .f32⟩
  | 4 => ⟨S1x128, .f32⟩
  | 5 => ⟨S50000x128, .f32⟩
  | 6 => ⟨S50000x128, .f32⟩
  | 7 => ⟨S50000x128, .f32⟩
  | 8 => ⟨S50000x128, .f32⟩
  | 9 => ⟨S_, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S50000x384, .f32⟩
  | 16 => ⟨S50000x128, .f32⟩
  | 17 => ⟨S1x128, .f32⟩
  | 18 => ⟨S50000x128, .f32⟩
  | 19 => ⟨S50000x128, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S_, .f32⟩
  | 26 => ⟨S50000x128, .f32⟩
  | 27 => ⟨S50000x128, .f32⟩
  | 28 => ⟨S50000x128, .f32⟩
  | 29 => ⟨S1x128, .f32⟩
  | 30 => ⟨S50000x128, .f32⟩
  | 31 => ⟨S50000x128, .f32⟩
  | 32 => ⟨S50000x128, .f32⟩
  | 33 => ⟨S50000x128, .f32⟩
  | 34 => ⟨S_, .f32⟩
  | 35 => ⟨S50000x128, .f32⟩
  | 36 => ⟨S50000x128, .f32⟩
  | 37 => ⟨S_, .f32⟩
  | 38 => ⟨S50000x128, .f32⟩
  | 39 => ⟨S50000x128, .f32⟩
  | 40 => ⟨S50000x128, .f32⟩
  | 41 => ⟨S50000x384, .f32⟩
  | 42 => ⟨S50000x128, .f32⟩
  | 43 => ⟨S1x128, .f32⟩
  | 44 => ⟨S50000x128, .f32⟩
  | 45 => ⟨S50000x128, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S50000x128, .f32⟩
  | 52 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_1 : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call0_cst : Ref sig .tc := ⟨.hbm, 75, rfl⟩
abbrev main_call0_v0 : Ref sig .tc := ⟨.hbm, 76, rfl⟩
abbrev main_v51 : Ref sig .tc := ⟨.hbm, 77, rfl⟩
abbrev main_v52 : Ref sig .tc := ⟨.hbm, 78, rfl⟩
abbrev main_cst_8 : Ref sig .tc := ⟨.hbm, 79, rfl⟩
abbrev main_v53 : Ref sig .tc := ⟨.hbm, 80, rfl⟩
abbrev main_c_9 : Ref sig .tc := ⟨.hbm, 81, rfl⟩
abbrev main_v54 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_11 : Ref sig .tc := ⟨.hbm, 91, rfl⟩
abbrev main_v62 : Ref sig .tc := ⟨.hbm, 92, rfl⟩
abbrev main_v63 : Ref sig .tc := ⟨.hbm, 93, rfl⟩
abbrev main_c_12 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_13 : Ref sig .tc := ⟨.hbm, 101, rfl⟩
abbrev main_v70 : Ref sig .tc := ⟨.hbm, 102, rfl⟩
abbrev main_v71 : Ref sig .tc := ⟨.hbm, 103, rfl⟩
abbrev main_c_14 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_15 : Ref sig .tc := ⟨.hbm, 112, rfl⟩
abbrev main_v79 : Ref sig .tc := ⟨.hbm, 113, rfl⟩
abbrev main_v80 : Ref sig .tc := ⟨.hbm, 114, rfl⟩
abbrev main_c_16 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_17 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_18 : Ref sig .tc := ⟨.hbm, 137, rfl⟩
abbrev main_v101 : Ref sig .tc := ⟨.hbm, 138, rfl⟩
abbrev main_v102 : Ref sig .tc := ⟨.hbm, 139, rfl⟩
abbrev main_cst_19 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_20 : Ref sig .tc := ⟨.hbm, 150, rfl⟩
abbrev main_v112 : Ref sig .tc := ⟨.hbm, 151, rfl⟩
abbrev main_v113 : Ref sig .tc := ⟨.hbm, 152, rfl⟩
abbrev main_cst_21 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_cst_22 : Ref sig .tc := ⟨.hbm, 162, rfl⟩
abbrev main_v122 : Ref sig .tc := ⟨.hbm, 163, rfl⟩
abbrev main_v123 : Ref sig .tc := ⟨.hbm, 164, rfl⟩
abbrev main_cst_23 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_cst_24 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x128_S50000x384_d1 : Shape.Concatenates [S50000x128, S50000x128, S50000x128] S50000x384 1
  dot_S50000x128_S128x128_S50000x128_1_0_0_1_n_n_wf : DotDims.WF S50000x128 S128x128 S50000x128 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x384_S384x128_S50000x128_1_0_0_1_n_n_wf : DotDims.WF S50000x384 S384x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf

class Facts : Prop extends Facts₀ where

variable [Facts]
-- ==== Proof.PreIdx.lean ====
/-
  What the precondition says of the edge indices.

  The precondition is a conjunction (a chain of `and` on one-bit words) whose last conjunct is the
  reduction by `and`, over every entry of the 2 × 1600000 array of edge indices, of the signed
  comparison "entry ≥ 0". When the whole conjunction is the word 1, so is its last conjunct; a
  reduction by `and` that is 1 met only 1s; and a signed comparison `x ≥ 0` whose word is 1 says
  that the signed reading of `x` is at least the signed reading of the zero word, which is 0.
-/
import proofs.«102804_j19628000542754_2_alg».proof.Pre_finite_inputs
import Idealize.ShloMosaic.Lib.ReduceAll

namespace Cert.PreIdx

open Cert.Pre_finite_inputs Idealize.ShloMosaic

/-- The rank-0 shape has one index. -/
instance subsingleton_scalar_idx : Subsingleton S_.Idx := ⟨fun _ _ => funext fun d => d.elim0⟩

/-- Every edge index is nonnegative as a signed 32-bit word, when the precondition holds. -/
theorem edge_index_nonneg {F : FTy → Type} [FloatOps F] [Facts]
    (a0 : FVec F S50000x128 .f32) (a1 : IVec S2x1600000 32) (a2 : FVec F S1600000 .f32)
    (a3 : FVec F S50000x128 .f32) (a4 : FVec F S128x128 .f32) (a5 : FVec F S128 .f32)
    (a6 : FVec F S128x128 .f32) (a7 : FVec F S128 .f32) (a8 : FVec F S384x128 .f32)
    (a9 : FVec F S128 .f32) (a10 : FVec F S384x128 .f32) (a11 : FVec F S128 .f32)
    (a12 : FVec F S384x128 .f32) (a13 : FVec F S128 .f32)
    (h : Cert.Pre_finite_inputs.fn (F := F) a0 a1 a2 a3 a4 a5 a6 a7 a8 a9 a10 a11 a12 a13 = fun _ => 1#1) :
    ∀ i : S2x1600000.Idx, 0 ≤ (a1 i).toInt := by
  intro i
  -- the conjunction at the one index of the scalar shape
  have h0 := congrFun h (fun d => d.elim0)
  dsimp only [fn, fn_part1, fn_part2, fn_part3] at h0
  -- its last conjunct: the reduction of the comparisons
  have h1 := (IntOp.andi_eq_one.1 h0).2
  -- every comparison is 1
  have h2 := Host.reduce_andi_all _ _ _ _ _ h1 i
  -- the comparison at `i`, read signed
  have h3 := IntOp.cmpi_sge.1 h2
  exact h3

end Cert.PreIdx
-- ==== Proof.KRun.lean ====
/-
  The idealized kernel's run with its RESULT kept: every weakly fair execution of the three kernel regions and
  the host operations between them terminates without a fault, the argument arrays end as launched, and the result
  array ends at the contents the last region leaves (the fold of the segments' effects from the launch memory,
  read at the result's buffer).
-/
import proofs.«102804_j19628000542754_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the segments launched from the memory `m`, the last thread state read against the final state; the result's
    buffer is one of the unscoped buffers that state holds, at the last boundary's contents. -/
theorem run_value : θ_run defs (onTc (τ := τ) (main (F := F))) ⟨m, fun _ => 0, ρ⟩ (fun r => ∀ c : Dev nD,
      r.2.mem ((c.tc : Thread nD τ).loc main_v71) = W6 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v71 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

end Cert.KernelIdeal.KRun

end
-- ==== Proof.Deg.lean ====
/-
  The weighted degree, computed in two ways, and the index wrap that changes nothing.

  The degree of node `i` is one (the self loop) plus the sum of the weights of the edges whose
  destination is `i`. One program starts the accumulating scatter from the array of zeros and adds
  the array of ones afterwards; the other starts the same scatter from the array of ones. Over the
  extended reals the accumulating scatter at `i` is the start value at `i` plus the sum of the
  updates that land on `i`, so the two are `1 + (0 + S)` and `1 + S` with the same sum `S`.

  The wrap `if v < 0 then v + 50000 else v` (all signed, on 32-bit words) returns `v` at every
  entry whose signed reading is not negative.
-/
import proofs.«102804_j19628000542754_2_alg».proof.KernelIdeal
import proofs.«102804_j19628000542754_2_alg».proof.ReferenceIdeal
import Idealize.ShloMosaic.PureOps.Ideal
import Idealize.ShloMosaic.PureOps.Ideal.Laws
import Idealize.ShloMosaic.Lib.Affine
import Idealize.ShloMosaic.Lib.IdealHost

namespace Cert.Deg

open Idealize.ShloMosaic

/-! ## The wrap of a nonnegative index -/

/-- At any shape: where every entry of `v` reads nonnegative, selecting `v + 50000` where
    `v < 0` (signed) and `v` elsewhere gives back `v`: the comparison is never 1. -/
theorem wrap_eq_gen {s : Shape} (hb : (⟨0, ![]⟩ : Shape).BroadcastsInDim s (![] : Fin 0 → Fin s.rank))
    (v : IVec s 32) (hv : ∀ e, 0 ≤ (v e).toInt) :
    select (cmpi .slt v (broadcastInDim s ![] hb (constantI (⟨0, ![]⟩ : Shape) 32 0#32)))
           (addi v (broadcastInDim s ![] hb (constantI (⟨0, ![]⟩ : Shape) 32 50000#32))) v = v := by
  funext e
  show Scalar.select (IntOp.cmpi .slt (v e) 0#32) (IntOp.addi (v e) 50000#32) (v e) = v e
  unfold Scalar.select
  refine if_neg fun h => ?_
  -- a comparison word of 1 would say the signed reading is below that of the zero word
  have hlt : (v e).toInt < (0#32 : BitVec 32).toInt := IntOp.cmpi_slt.1 h
  have h0 : (0#32 : BitVec 32).toInt = 0 := by decide
  have := hv e
  omega

/-- The wrap as the reference program spells it. -/
theorem wrap_eq [Cert.ReferenceIdeal.Facts₀] (v : IVec Cert.ReferenceIdeal.S1600000 32) (hv : ∀ e, 0 ≤ (v e).toInt) :
    select (cmpi .slt v (broadcastInDim Cert.ReferenceIdeal.S1600000 ![] Cert.ReferenceIdeal.Facts₀.bcast_S_S1600000 (constantI Cert.ReferenceIdeal.S_ 32 0#32)))
           (addi v (broadcastInDim Cert.ReferenceIdeal.S1600000 ![] Cert.ReferenceIdeal.Facts₀.bcast_S_S1600000 (constantI Cert.ReferenceIdeal.S_ 32 50000#32))) v = v :=
  wrap_eq_gen Cert.ReferenceIdeal.Facts₀.bcast_S_S1600000 v hv

/-- The wrap as the kernel's program spells it. -/
theorem wrap_eq_kernel [Cert.KernelIdeal.Facts₀] (v : IVec Cert.KernelIdeal.S1600000 32) (hv : ∀ e, 0 ≤ (v e).toInt) :
    select (cmpi .slt v (broadcastInDim Cert.KernelIdeal.S1600000 ![] Cert.KernelIdeal.Facts₀.bcast_S_S1600000 (constantI Cert.KernelIdeal.S_ 32 0#32)))
           (addi v (broadcastInDim Cert.KernelIdeal.S1600000 ![] Cert.KernelIdeal.Facts₀.bcast_S_S1600000 (constantI Cert.KernelIdeal.S_ 32 50000#32))) v = v :=
  wrap_eq_gen Cert.KernelIdeal.Facts₀.bcast_S_S1600000 v hv

/-! ## The accumulating scatter over the extended reals -/

/-- Over the extended reals the accumulating scatter, read at `i`, is the start value at `i` plus
    the sum of the updates whose result index is `i`. -/
theorem scatterAdd_apply {s si u : Shape} {φ : FTy} {w : Nat} (d : ScatterDims s si u) (x : FVec Ideal s φ)
    (idx : IVec si w) (upd : FVec Ideal u φ) (i : s.Idx) :
    Host.scatterAdd d x idx upd i
      = x i + ∑ j ∈ Finset.univ.filter (fun j => d.resultIdx? j idx = some i), upd j := rfl

/-- Adding an array to the scatter started from an array of zeros is the scatter started from that
    array: `c i + (0 + S) = c i + S`. -/
theorem add_scatterAdd_zero {s si u : Shape} {φ : FTy} {w : Nat} (d : ScatterDims s si u) (c z : FVec Ideal s φ)
    (hz : ∀ i, z i = 0) (idx : IVec si w) (upd : FVec Ideal u φ) :
    addf c (Host.scatterAdd d z idx upd) = Host.scatterAdd d c idx upd := by
  funext i
  refine (ValueIdx.addf_apply c _ i).trans ?_
  rw [scatterAdd_apply, scatterAdd_apply, hz i, zero_add]

/-! ## The degree -/

/-- The two programs' scatter dimension numbers are one record. -/
theorem scatter_dims_eq [Cert.KernelIdeal.Facts₀] [Cert.ReferenceIdeal.Facts₀] :
    Cert.KernelIdeal.scatter_S50000_S1600000x1_S1600000_n_0_0_1
      = Cert.ReferenceIdeal.scatter_S50000_S1600000x1_S1600000_n_0_0_1 := rfl

/-- The array of zeros reads the extended real zero everywhere. -/
theorem zeros_apply [Cert.KernelIdeal.Facts₀] (i : Cert.KernelIdeal.S50000.Idx) :
    broadcastInDim Cert.KernelIdeal.S50000 ![] Cert.KernelIdeal.Facts₀.bcast_S_S50000
      (constant (F := Ideal) Cert.KernelIdeal.S_ .f32 0x00000000#32) i = 0 :=
  (ValueIdx.broadcastInDim_scalar_apply _ _ i).trans ((ValueIdx.constant_apply _ _).trans Ideal.ofBits_zero_f32)

/-- One plus the scatter from zeros is the scatter from ones. -/
theorem deg_eq [Cert.KernelIdeal.Facts₀] [Cert.ReferenceIdeal.Facts₀]
    (idx : IVec Cert.KernelIdeal.S1600000x1 32) (w : FVec Ideal Cert.KernelIdeal.S1600000 .f32) :
    addf (broadcastInDim Cert.KernelIdeal.S50000 ![] Cert.KernelIdeal.Facts₀.bcast_S_S50000 (constant Cert.KernelIdeal.S_ .f32 0x3F800000#32))
         (Host.scatterAdd Cert.KernelIdeal.scatter_S50000_S1600000x1_S1600000_n_0_0_1
            (broadcastInDim Cert.KernelIdeal.S50000 ![] Cert.KernelIdeal.Facts₀.bcast_S_S50000 (constant Cert.KernelIdeal.S_ .f32 0x00000000#32)) idx w)
      = Host.scatterAdd Cert.ReferenceIdeal.scatter_S50000_S1600000x1_S1600000_n_0_0_1
          (broadcastInDim Cert.ReferenceIdeal.S50000 ![] Cert.ReferenceIdeal.Facts₀.bcast_S_S50000 (constant Cert.ReferenceIdeal.S_ .f32 0x3F800000#32)) idx w := by
  rw [← scatter_dims_eq]
  exact add_scatterAdd_zero Cert.KernelIdeal.scatter_S50000_S1600000x1_S1600000_n_0_0_1
    (broadcastInDim Cert.KernelIdeal.S50000 ![] Cert.KernelIdeal.Facts₀.bcast_S_S50000 (constant Cert.KernelIdeal.S_ .f32 0x3F800000#32))
    (broadcastInDim Cert.KernelIdeal.S50000 ![] Cert.KernelIdeal.Facts₀.bcast_S_S50000 (constant Cert.KernelIdeal.S_ .f32 0x00000000#32))
    zeros_apply idx w

end Cert.Deg
-- ==== Proof.RStages.lean ====
/-
  Identities between stages of the reference program, as whole arrays.

  When no edge id is negative, jnp's wrap of a negative id (`select (id < 0) (id + 50000) id`) changes nothing, so the
  weighted degree is scattered over the destination ids themselves. The second layer recomputes the degrees, their
  inverse square roots and the edge coefficients by the same operations of the same arrays: those stages are the first
  layer's.
-/
import proofs.«102804_j19628000542754_2_alg».proof.Proof.Gen.ReferenceIdeal.Read
import proofs.«102804_j19628000542754_2_alg».proof.Proof.Deg

noncomputable section

namespace Cert.ReferenceIdeal.RStages

open Cert.ReferenceIdeal Cert.ReferenceIdeal.Gen Cert.ReferenceIdeal.Read Idealize.ShloMosaic

variable (x1 : (⟨S2x1600000, .i32⟩ : BufTy).Contents (Elt Ideal)) (x2 : (⟨S1600000, .f32⟩ : BufTy).Contents (Elt Ideal))

/-- The destination ids are entries of the edge list. -/
theorem dst_nonneg (h : ∀ i : S2x1600000.Idx, 0 ≤ (x1 i).toInt) (e : S1600000.Idx) :
    0 ≤ (val_main_v3 (F := Ideal) x1 e).toInt := by
  rw [val_main_v3_apply, val_main_v2_apply]; exact h _

/-- The wrapped destination ids of the first degree computation are the ids. -/
theorem v10_eq (h : ∀ i : S2x1600000.Idx, 0 ≤ (x1 i).toInt) :
    val_main_v10 (F := Ideal) x1 = val_main_v3 (F := Ideal) x1 := by
  unfold val_main_v10 val_main_v7 val_main_v9 val_main_v6 val_main_v8 val_main_c val_main_c_0
  exact Cert.Deg.wrap_eq _ (dst_nonneg x1 h)

/-- The inverse square-root degrees, scattered over the destination ids themselves. -/
theorem v13_eq (h : ∀ i : S2x1600000.Idx, 0 ≤ (x1 i).toInt) :
    val_main_v13 (F := Ideal) x1 x2
      = Host.rsqrt (F := Ideal) (Host.scatterAdd (F := Ideal) scatter_S50000_S1600000x1_S1600000_n_0_0_1
          (broadcastInDim S50000 ![] Facts₀.bcast_S_S50000 (constant (F := Ideal) S_ .f32 0x3F800000#32))
          (broadcastInDim S1600000x1 ![0] Facts₀.bcast_S1600000_S1600000x1_0 (val_main_v3 (F := Ideal) x1)) x2) := by
  unfold val_main_v13 val_main_v12 val_main_v11 val_main_v5 val_main_cst
  rw [v10_eq x1 h]

/-- The second layer's inverse square-root degrees are the first layer's. -/
theorem v61_eq : val_main_v61 (F := Ideal) x1 x2 = val_main_v13 (F := Ideal) x1 x2 := rfl

/-- The second layer's edge coefficients are the first layer's. -/
theorem v77_eq : val_main_v77 (F := Ideal) x1 x2 = val_main_v29 (F := Ideal) x1 x2 := rfl

end Cert.ReferenceIdeal.RStages

end
-- ==== Proof.Spec.lean ====
/-
  The mathematics of one node's row, over the extended reals.

  A graph-convolution layer gives node `i`, feature `k` the value
  `agg i k + (d i * d i) * xw i k + b k`, where `agg` is the edge aggregation, `xw` the node's
  projected features, `d i` the inverse square root of the node's weighted degree and `b` the bias.
  The first layer applies `max · 0` and multiplies the row by a 128 × 128 matrix; the second applies
  the logistic function and feeds the gated recurrent update
  `u * h + (1 - u) * tanh(...)`, whose three gates are each a sum of three 128-term row products
  and a bias. Every function below takes the ROWS it depends on (functions of the feature number) and
  returns one entry; the kernel's blocks and the reference's whole arrays are both read through them.
-/
import Mathlib
import Idealize.ShloMosaic.PureOps.Ideal
import Idealize.ShloMosaic.Lib.ValueIdx

noncomputable section

namespace Cert.Tgcn

open Idealize.ShloMosaic

/-- The words of the two float constants the programs spell: zero and one. -/
abbrev zeroF : EReal := Ideal.ofBits .f32 0x00000000#32
abbrev oneF : EReal := Ideal.ofBits .f32 0x3F800000#32

/-- Block `s` (of three) of the rows of a 384 × 128 weight matrix, entry `(k, q)`: the rows `128 s … 128 s + 127`
    multiply the `s`-th of the three concatenated 128-wide feature rows. -/
def wSlice (W : (⟨2, ![384, 128]⟩ : Shape).Idx → EReal) (s : Fin 3) (k q : Fin 128) : EReal :=
  W (ValueIdx.ix2 (⟨128 * s.val + k.val, by have := s.isLt; have := k.isLt; omega⟩ : Fin 384) q)

/-- Entry `q` of a row times a 128 × 128 matrix. -/
def rowDot (a : Fin 128 → EReal) (W : Fin 128 → Fin 128 → EReal) (q : Fin 128) : EReal :=
  ∑ k : Fin 128, a k * W k q

/-- One entry of a graph-convolution layer before its activation: aggregation, self loop, bias. -/
def comb (agg xw d b : EReal) : EReal := agg + d * d * xw + b

/-- The first layer's activation. -/
def relu (z : EReal) : EReal := max z zeroF

/-- Entry `q` of the second layer's projected features: the first layer's activated row times the matrix. -/
def xw2Row (agg xw : Fin 128 → EReal) (d : EReal) (b : Fin 128 → EReal) (W : Fin 128 → Fin 128 → EReal)
    (q : Fin 128) : EReal :=
  rowDot (fun k => relu (comb (agg k) (xw k) d (b k))) W q

/-- Entry `k` of the second layer's activated row. -/
def gRow (agg xw : Fin 128 → EReal) (d : EReal) (b : Fin 128 → EReal) (k : Fin 128) : EReal :=
  Ideal.logistic (comb (agg k) (xw k) d (b k))

/-- A gate before its activation: three row products and the bias, added in this order. -/
def gateLin (x g h : Fin 128 → EReal) (Wx Wg Wh : Fin 128 → Fin 128 → EReal) (b : Fin 128 → EReal)
    (q : Fin 128) : EReal :=
  rowDot x Wx q + rowDot g Wg q + rowDot h Wh q + b q

/-- Entry `q` of the updated hidden row. -/
def outRow (x g h : Fin 128 → EReal)
    (Wux Wug Wuh : Fin 128 → Fin 128 → EReal) (bu : Fin 128 → EReal)
    (Wrx Wrg Wrh : Fin 128 → Fin 128 → EReal) (br : Fin 128 → EReal)
    (Wcx Wcg Wch : Fin 128 → Fin 128 → EReal) (bc : Fin 128 → EReal) (q : Fin 128) : EReal :=
  Ideal.logistic (gateLin x g h Wux Wug Wuh bu q) * h q
    + (oneF - Ideal.logistic (gateLin x g h Wux Wug Wuh bu q))
      * Ideal.tanh (gateLin x g (fun k => Ideal.logistic (gateLin x g h Wrx Wrg Wrh br k) * h k) Wcx Wcg Wch bc q)

end Cert.Tgcn

end
-- ==== Proof.RRead.lean ====
/-
  The reference program read at one entry, over the extended reals: each stage below is one of the
  row functions of the specification applied to the rows of the stages before it. First the
  small facts used throughout (the word of one, the logistic function as it is spelt, a 384-term sum
  in three runs, a three-piece join read at a column), then the two graph-convolution layers, then
  the three gates and the updated hidden row.
-/
import proofs.«102804_j19628000542754_2_alg».proof.Proof.Gen.ReferenceIdeal.Read
import proofs.«102804_j19628000542754_2_alg».proof.Proof.Spec
import Idealize.ShloMosaic.Lib.Pipeline.Value
import Idealize.ShloMosaic.Lib.ValueIdx
import Idealize.ShloMosaic.PureOps.Ideal.Laws

noncomputable section

namespace Cert.ReferenceIdeal.RRead

open Cert.ReferenceIdeal Cert.ReferenceIdeal.Gen Cert.ReferenceIdeal.Read Idealize.ShloMosaic Idealize.ShloMosaic.ValueIdx

local notation "TyX" => BufTy.Contents (Elt Ideal) (BufTy.mk S50000x128 EltTy.f32)
local notation "TyE" => BufTy.Contents (Elt Ideal) (BufTy.mk S2x1600000 EltTy.i32)
local notation "TyW" => BufTy.Contents (Elt Ideal) (BufTy.mk S1600000 EltTy.f32)
local notation "TyM" => BufTy.Contents (Elt Ideal) (BufTy.mk S128x128 EltTy.f32)
local notation "TyB" => BufTy.Contents (Elt Ideal) (BufTy.mk S128 EltTy.f32)
local notation "TyG" => BufTy.Contents (Elt Ideal) (BufTy.mk S384x128 EltTy.f32)

/-- Two index functions of rank one (or two) agree when their coordinates do. -/
local macro "idx_rfl1" : tactic =>
  `(tactic| exact funext fun a => Fin.ext (by match a with | ⟨0, _⟩ => rfl))
local macro "idx_rfl2" : tactic =>
  `(tactic| exact funext fun a => Fin.ext (by match a with | ⟨0, _⟩ => rfl | ⟨1, _⟩ => rfl))

/-! ## Small facts: the word of one, the spelt logistic, a 384-term sum in three runs, a three-piece join -/

/-- The word `0x3F800000` is the number one. -/
theorem one_eq : Ideal.ofBits .f32 0x3F800000#32 = 1 := by
  simp [Ideal.ofBits, Ideal.ieee, -EReal.coe_mul]; norm_num

/-- `1 / (1 + exp (-z))` with both ones written as the word of one is the logistic function. -/
theorem logistic_spelt (z : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf z)))
      = Ideal.logistic z := by
  show Ideal.div (Ideal.ofBits .f32 0x3F800000#32) (Ideal.ofBits .f32 0x3F800000#32 + Ideal.exp (-z)) = Ideal.logistic z
  rw [one_eq]
  rfl

/-- A sum of 384 terms is the sum of its three consecutive runs of 128 (regrouping in a commutative monoid). -/
theorem sum_fin384 {M : Type*} [AddCommMonoid M] (f : Fin 384 → M) :
    ∑ k : Fin 384, f k
      = (∑ k : Fin 128, f ⟨k.val, by have := k.isLt; omega⟩ + ∑ k : Fin 128, f ⟨128 + k.val, by have := k.isLt; omega⟩)
        + ∑ k : Fin 128, f ⟨256 + k.val, by have := k.isLt; omega⟩ := by
  have h1 := Fin.sum_univ_add (a := 128 + 128) (b := 128) (f : Fin (128 + 128 + 128) → M)
  have h2 := Fin.sum_univ_add (a := 128) (b := 128) (fun i : Fin (128 + 128) => f (Fin.castAdd 128 i))
  exact (h1.trans (congrArg (· + _) h2))

section Join
variable {α : Type} (a b c : S50000x128.Idx → α) (p : Fin 50000) (k : Fin 128)

/-- Three 128-wide arrays joined along the columns: column `k` is the first piece's column `k`. -/
theorem cat3_apply0 :
    concatenate S50000x384 1 [⟨S50000x128, a⟩, ⟨S50000x128, b⟩, ⟨S50000x128, c⟩]
        concatenates_S50000x128_S50000x128_S50000x128_S50000x384_d1
        (ix2 p (⟨k.val, by have := k.isLt; omega⟩ : Fin 384)) = a (ix2 p k) := by
  refine concatenate_apply_piece (1 : Fin S50000x384.rank) [⟨S50000x128, a⟩, ⟨S50000x128, b⟩, ⟨S50000x128, c⟩]
    concatenates_S50000x128_S50000x128_S50000x128_S50000x384_d1 _ 0 (by simp) S50000x128 a rfl rfl 0 rfl (ix2 p k) ?_ ?_
  · intro d hd
    match d with
    | ⟨0, _⟩ => rfl
    | ⟨1, _⟩ => exact absurd rfl hd
  · show 0 + k.val = k.val
    omega

/-- Column `128 + k` is the second piece's column `k`. -/
theorem cat3_apply1 :
    concatenate S50000x384 1 [⟨S50000x128, a⟩, ⟨S50000x128, b⟩, ⟨S50000x128, c⟩]
        concatenates_S50000x128_S50000x128_S50000x128_S50000x384_d1
        (ix2 p (⟨128 + k.val, by have := k.isLt; omega⟩ : Fin 384)) = b (ix2 p k) := by
  refine concatenate_apply_piece (1 : Fin S50000x384.rank) [⟨S50000x128, a⟩, ⟨S50000x128, b⟩, ⟨S50000x128, c⟩]
    concatenates_S50000x128_S50000x128_S50000x128_S50000x384_d1 _ 1 (by simp) S50000x128 b rfl rfl 128 rfl (ix2 p k) ?_ ?_
  · intro d hd
    match d with
    | ⟨0, _⟩ => rfl
    | ⟨1, _⟩ => exact absurd rfl hd
  · rfl

/-- Column `256 + k` is the third piece's column `k`. -/
theorem cat3_apply2 :
    concatenate S50000x384 1 [⟨S50000x128, a⟩, ⟨S50000x128, b⟩, ⟨S50000x128, c⟩]
        concatenates_S50000x128_S50000x128_S50000x128_S50000x384_d1
        (ix2 p (⟨256 + k.val, by have := k.isLt; omega⟩ : Fin 384)) = c (ix2 p k) := by
  refine concatenate_apply_piece (1 : Fin S50000x384.rank) [⟨S50000x128, a⟩, ⟨S50000x128, b⟩, ⟨S50000x128, c⟩]
    concatenates_S50000x128_S50000x128_S50000x128_S50000x384_d1 _ 2 (by simp) S50000x128 c rfl rfl 256 rfl (ix2 p k) ?_ ?_
  · intro d hd
    match d with
    | ⟨0, _⟩ => rfl
    | ⟨1, _⟩ => exact absurd rfl hd
  · rfl

end Join

/-- The row `[a | b | c]` of the joined array times column `q` of a 384 × 128 matrix is the three 128-term row
    products against the matrix's three blocks of rows, added in that order. -/
theorem cat_dot (a b c : TyX) (W : TyG) (p : Fin 50000) (q : Fin 128)
    (l : Fin 384 → S50000x384.Idx) (r : Fin 384 → S384x128.Idx)
    (hl : ∀ k, l k = ix2 p k) (hr : ∀ k, r k = ix2 k q) :
    ∑ k : Fin 384, concatenate S50000x384 1 [⟨S50000x128, a⟩, ⟨S50000x128, b⟩, ⟨S50000x128, c⟩]
          concatenates_S50000x128_S50000x128_S50000x128_S50000x384_d1 (l k) * W (r k)
      = Cert.Tgcn.rowDot (fun k => a (ix2 p k)) (Cert.Tgcn.wSlice W 0) q
        + Cert.Tgcn.rowDot (fun k => b (ix2 p k)) (Cert.Tgcn.wSlice W 1) q
        + Cert.Tgcn.rowDot (fun k => c (ix2 p k)) (Cert.Tgcn.wSlice W 2) q := by
  obtain rfl : l = fun k => ix2 p k := funext hl
  obtain rfl : r = fun k => ix2 k q := funext hr
  refine (sum_fin384 _).trans ?_
  unfold Cert.Tgcn.rowDot
  refine congrArg₂ (· + ·) (congrArg₂ (· + ·) ?_ ?_) ?_
  · refine Finset.sum_congr rfl fun k _ => ?_
    exact congrArg₂ (· * ·) (cat3_apply0 a b c p k)
      (congrArg W (congrArg (fun t : Fin 384 => ix2 t q) (Fin.ext (show k.val = 128 * 0 + k.val by omega))))
  · refine Finset.sum_congr rfl fun k _ => ?_
    exact congrArg₂ (· * ·) (cat3_apply1 a b c p k)
      (congrArg W (congrArg (fun t : Fin 384 => ix2 t q) (Fin.ext (show 128 + k.val = 128 * 1 + k.val by omega))))
  · refine Finset.sum_congr rfl fun k _ => ?_
    exact congrArg₂ (· * ·) (cat3_apply2 a b c p k)
      (congrArg W (congrArg (fun t : Fin 384 => ix2 t q) (Fin.ext (show 256 + k.val = 128 * 2 + k.val by omega))))

/-! ## The stages -/

section Stages
variable (x0 : TyX) (x1 : TyE) (x2 : TyW) (x3 : TyX) (x4 : TyM) (x5 : TyB) (x6 : TyM) (x7 : TyB)
  (x8 : TyG) (x9 : TyB) (x10 : TyG) (x11 : TyB) (x12 : TyG) (x13 : TyB) (p : Fin 50000) (q k : Fin 128)

/-- The first projection: entry `(p, q)` of `x · W1` is row `p` of `x` times column `q` of `W1`. -/
theorem v4_apply :
    val_main_v4 (F := Ideal) x0 x4 (ix2 p q)
      = Cert.Tgcn.rowDot (fun k => x0 (ix2 p k)) (fun k q' => x4 (ix2 k q')) q := by
  rw [val_main_v4_apply]
  unfold Cert.Tgcn.rowDot
  refine Finset.sum_congr rfl fun k _ => ?_
  have el : lidx_main_v4 (ix2 p q) k = ix2 p k := by idx_rfl2
  have er : ridx_main_v4 (ix2 p q) k = ix2 k q := by idx_rfl2
  rw [el, er]

/-- The first layer's activated entry: `max (agg + d² · xw + b) 0`. -/
theorem v51_apply :
    val_main_v51 (F := Ideal) x0 x1 x2 x4 x5 (ix2 p k)
      = Cert.Tgcn.relu (Cert.Tgcn.comb (val_main_v42 (F := Ideal) x0 x1 x2 x4 (ix2 p k)) (val_main_v4 (F := Ideal) x0 x4 (ix2 p k))
          (val_main_v13 (F := Ideal) x1 x2 (ix1 p)) (x5 (ix1 k))) := by
  have e1 : idx_main_v44 (idx_main_v45 (ix2 p k)) = ix1 p := by idx_rfl1
  have e2 : idx_main_v48 (idx_main_v49 (ix2 p k)) = ix1 k := by idx_rfl1
  rw [val_main_v51_apply, val_main_v50_apply, val_main_v47_apply, val_main_v46_apply, val_main_v45_apply,
    val_main_v44_apply, val_main_v43_apply, val_main_v49_apply, val_main_v48_apply, val_main_call0_v0_apply,
    val_main_call0_cst_apply, e1, e2]
  rfl

/-- The second layer's projected features: the first layer's activated row times `W2`. -/
theorem v52_apply :
    val_main_v52 (F := Ideal) x0 x1 x2 x4 x5 x6 (ix2 p q)
      = Cert.Tgcn.xw2Row (fun k => val_main_v42 (F := Ideal) x0 x1 x2 x4 (ix2 p k))
          (fun k => val_main_v4 (F := Ideal) x0 x4 (ix2 p k))
          (val_main_v13 (F := Ideal) x1 x2 (ix1 p)) (fun k => x5 (ix1 k)) (fun k q' => x6 (ix2 k q')) q := by
  rw [val_main_v52_apply]
  unfold Cert.Tgcn.xw2Row Cert.Tgcn.rowDot
  refine Finset.sum_congr rfl fun k _ => ?_
  have el : lidx_main_v52 (ix2 p q) k = ix2 p k := by idx_rfl2
  have er : ridx_main_v52 (ix2 p q) k = ix2 k q := by idx_rfl2
  rw [el, er, v51_apply]

/-- The second layer before its activation: `agg + d² · xw + b`. -/
theorem v98_apply :
    val_main_v98 (F := Ideal) x0 x1 x2 x4 x5 x6 x7 (ix2 p k)
      = Cert.Tgcn.comb (val_main_v90 (F := Ideal) x0 x1 x2 x4 x5 x6 (ix2 p k))
          (val_main_v52 (F := Ideal) x0 x1 x2 x4 x5 x6 (ix2 p k)) (val_main_v61 (F := Ideal) x1 x2 (ix1 p)) (x7 (ix1 k)) := by
  have e1 : idx_main_v92 (idx_main_v93 (ix2 p k)) = ix1 p := by idx_rfl1
  have e2 : idx_main_v96 (idx_main_v97 (ix2 p k)) = ix1 k := by idx_rfl1
  rw [val_main_v98_apply, val_main_v95_apply, val_main_v94_apply, val_main_v93_apply, val_main_v92_apply,
    val_main_v91_apply, val_main_v97_apply, val_main_v96_apply, e1, e2]
  rfl

/-- The second layer's activated entry: the logistic function of `agg + d² · xw + b`. -/
theorem v104_apply :
    val_main_v104 (F := Ideal) x0 x1 x2 x4 x5 x6 x7 (ix2 p k)
      = Cert.Tgcn.gRow (fun k' => val_main_v90 (F := Ideal) x0 x1 x2 x4 x5 x6 (ix2 p k'))
          (fun k' => val_main_v52 (F := Ideal) x0 x1 x2 x4 x5 x6 (ix2 p k'))
          (val_main_v61 (F := Ideal) x1 x2 (ix1 p)) (fun k' => x7 (ix1 k')) k := by
  rw [val_main_v104_apply, val_main_v103_apply, val_main_cst_19_apply, val_main_v102_apply, val_main_v101_apply,
    val_main_cst_18_apply, val_main_v100_apply, val_main_v99_apply]
  refine (logistic_spelt _).trans ?_
  rw [v98_apply]
  rfl

/-! ## The gates -/

/-- The update gate before its activation: the row `[x | g | h]` times `Wu`, plus the bias. -/
theorem v109_apply :
    val_main_v109 (F := Ideal) x0 x1 x2 x3 x4 x5 x6 x7 x8 x9 (ix2 p q)
      = Cert.Tgcn.gateLin (fun k => x0 (ix2 p k)) (fun k => val_main_v104 (F := Ideal) x0 x1 x2 x4 x5 x6 x7 (ix2 p k))
          (fun k => x3 (ix2 p k)) (Cert.Tgcn.wSlice x8 0) (Cert.Tgcn.wSlice x8 1) (Cert.Tgcn.wSlice x8 2)
          (fun k => x9 (ix1 k)) q := by
  have e : idx_main_v107 (idx_main_v108 (ix2 p q)) = ix1 q := by idx_rfl1
  rw [val_main_v109_apply, val_main_v108_apply, val_main_v107_apply, e, val_main_v106_apply, Ideal.addf_def]
  unfold Cert.Tgcn.gateLin
  exact congrArg (· + x9 (ix1 q))
    (cat_dot x0 (val_main_v104 (F := Ideal) x0 x1 x2 x4 x5 x6 x7) x3 x8 p q _ _ (fun k => by idx_rfl2) (fun k => by idx_rfl2))

/-- The update gate: the logistic function of the above. -/
theorem v115_apply :
    val_main_v115 (F := Ideal) x0 x1 x2 x3 x4 x5 x6 x7 x8 x9 (ix2 p q)
      = Ideal.logistic (Cert.Tgcn.gateLin (fun k => x0 (ix2 p k))
          (fun k => val_main_v104 (F := Ideal) x0 x1 x2 x4 x5 x6 x7 (ix2 p k)) (fun k => x3 (ix2 p k))
          (Cert.Tgcn.wSlice x8 0) (Cert.Tgcn.wSlice x8 1) (Cert.Tgcn.wSlice x8 2) (fun k => x9 (ix1 k)) q) := by
  rw [val_main_v115_apply, val_main_v114_apply, val_main_cst_21_apply, val_main_v113_apply, val_main_v112_apply,
    val_main_cst_20_apply, val_main_v111_apply, val_main_v110_apply]
  refine (logistic_spelt _).trans ?_
  rw [v109_apply]

/-- The reset gate before its activation: the row `[x | g | h]` times `Wr`, plus the bias. -/
theorem v119_apply :
    val_main_v119 (F := Ideal) x0 x1 x2 x3 x4 x5 x6 x7 x10 x11 (ix2 p q)
      = Cert.Tgcn.gateLin (fun k => x0 (ix2 p k)) (fun k => val_main_v104 (F := Ideal) x0 x1 x2 x4 x5 x6 x7 (ix2 p k))
          (fun k => x3 (ix2 p k)) (Cert.Tgcn.wSlice x10 0) (Cert.Tgcn.wSlice x10 1) (Cert.Tgcn.wSlice x10 2)
          (fun k => x11 (ix1 k)) q := by
  have e : idx_main_v117 (idx_main_v118 (ix2 p q)) = ix1 q := by idx_rfl1
  rw [val_main_v119_apply, val_main_v118_apply, val_main_v117_apply, e, val_main_v116_apply, Ideal.addf_def]
  unfold Cert.Tgcn.gateLin
  exact congrArg (· + x11 (ix1 q))
    (cat_dot x0 (val_main_v104 (F := Ideal) x0 x1 x2 x4 x5 x6 x7) x3 x10 p q _ _ (fun k => by idx_rfl2) (fun k => by idx_rfl2))

/-- The reset gate times the hidden entry. -/
theorem v126_apply :
    val_main_v126 (F := Ideal) x0 x1 x2 x3 x4 x5 x6 x7 x10 x11 (ix2 p q)
      = Ideal.logistic (Cert.Tgcn.gateLin (fun k => x0 (ix2 p k))
          (fun k => val_main_v104 (F := Ideal) x0 x1 x2 x4 x5 x6 x7 (ix2 p k)) (fun k => x3 (ix2 p k))
          (Cert.Tgcn.wSlice x10 0) (Cert.Tgcn.wSlice x10 1) (Cert.Tgcn.wSlice x10 2) (fun k => x11 (ix1 k)) q)
        * x3 (ix2 p q) := by
  rw [val_main_v126_apply, val_main_v125_apply, val_main_v124_apply, val_main_cst_23_apply, val_main_v123_apply,
    val_main_v122_apply, val_main_cst_22_apply, val_main_v121_apply, val_main_v120_apply, Ideal.mulf_def]
  refine congrArg (· * x3 (ix2 p q)) ((logistic_spelt _).trans ?_)
  rw [v119_apply]

/-- The candidate before its activation: the row `[x | g | r · h]` times `Wc`, plus the bias. -/
theorem v131_apply :
    val_main_v131 (F := Ideal) x0 x1 x2 x3 x4 x5 x6 x7 x10 x11 x12 x13 (ix2 p q)
      = Cert.Tgcn.gateLin (fun k => x0 (ix2 p k)) (fun k => val_main_v104 (F := Ideal) x0 x1 x2 x4 x5 x6 x7 (ix2 p k))
          (fun k => val_main_v126 (F := Ideal) x0 x1 x2 x3 x4 x5 x6 x7 x10 x11 (ix2 p k))
          (Cert.Tgcn.wSlice x12 0) (Cert.Tgcn.wSlice x12 1) (Cert.Tgcn.wSlice x12 2) (fun k => x13 (ix1 k)) q := by
  have e : idx_main_v129 (idx_main_v130 (ix2 p q)) = ix1 q := by idx_rfl1
  rw [val_main_v131_apply, val_main_v130_apply, val_main_v129_apply, e, val_main_v128_apply, Ideal.addf_def]
  unfold Cert.Tgcn.gateLin
  exact congrArg (· + x13 (ix1 q))
    (cat_dot x0 (val_main_v104 (F := Ideal) x0 x1 x2 x4 x5 x6 x7) (val_main_v126 (F := Ideal) x0 x1 x2 x3 x4 x5 x6 x7 x10 x11)
      x12 p q _ _ (fun k => by idx_rfl2) (fun k => by idx_rfl2))

/-- The result: `u · h + (1 - u) · tanh (candidate)`. -/
theorem v137_apply :
    val_main_v137 (F := Ideal) x0 x1 x2 x3 x4 x5 x6 x7 x8 x9 x10 x11 x12 x13 (ix2 p q)
      = Cert.Tgcn.outRow (fun k => x0 (ix2 p k)) (fun k => val_main_v104 (F := Ideal) x0 x1 x2 x4 x5 x6 x7 (ix2 p k))
          (fun k => x3 (ix2 p k))
          (Cert.Tgcn.wSlice x8 0) (Cert.Tgcn.wSlice x8 1) (Cert.Tgcn.wSlice x8 2) (fun k => x9 (ix1 k))
          (Cert.Tgcn.wSlice x10 0) (Cert.Tgcn.wSlice x10 1) (Cert.Tgcn.wSlice x10 2) (fun k => x11 (ix1 k))
          (Cert.Tgcn.wSlice x12 0) (Cert.Tgcn.wSlice x12 1) (Cert.Tgcn.wSlice x12 2) (fun k => x13 (ix1 k)) q := by
  have h126 : (fun k => val_main_v126 (F := Ideal) x0 x1 x2 x3 x4 x5 x6 x7 x10 x11 (ix2 p k))
      = fun k => Ideal.logistic (Cert.Tgcn.gateLin (fun k => x0 (ix2 p k))
          (fun k => val_main_v104 (F := Ideal) x0 x1 x2 x4 x5 x6 x7 (ix2 p k)) (fun k => x3 (ix2 p k))
          (Cert.Tgcn.wSlice x10 0) (Cert.Tgcn.wSlice x10 1) (Cert.Tgcn.wSlice x10 2) (fun k => x11 (ix1 k)) k)
        * x3 (ix2 p k) :=
    funext fun k => v126_apply x0 x1 x2 x3 x4 x5 x6 x7 x10 x11 p k
  rw [val_main_v137_apply, val_main_v133_apply, val_main_v136_apply, val_main_v135_apply, val_main_v134_apply,
    val_main_cst_24_apply, val_main_v132_apply, v131_apply, v115_apply, h126]
  rfl

end Stages

end Cert.ReferenceIdeal.RRead

end
-- ==== Proof.KLayout.lean ====
/-
  The kernel program's layout operations on the host side read at one entry, over the extended reals:
  a vector reshaped to a one-column or a one-row matrix keeps its entries, and the three 128-row
  slices of a 384 × 128 weight matrix are the three blocks of rows the specification names.
-/
import proofs.«102804_j19628000542754_2_alg».proof.KernelIdeal
import proofs.«102804_j19628000542754_2_alg».proof.Proof.Spec
import Idealize.ShloMosaic.Lib.Pipeline.Value
import Idealize.ShloMosaic.Lib.ValueIdx

noncomputable section

namespace Cert.KernelIdeal.KLayout

open Cert.KernelIdeal Idealize.ShloMosaic Idealize.ShloMosaic.ValueIdx

variable [Facts₀]
open Facts₀

/-- A vector of 50000 entries as a 50000 × 1 matrix: entry `(p, 0)` is entry `p`
    (row-major position `p · 1 + 0 = p`). -/
theorem col_apply (v : FVec Ideal S50000 .f32) (p : Fin 50000) :
    shapeCast S50000x1 v shapeCasts_S50000_S50000x1 (ix2 p (0 : Fin 1)) = v (ix1 p) := by
  refine shapeCast_apply v shapeCasts_S50000_S50000x1 (ix2 p (0 : Fin 1)) (ix1 p) ?_
  rw [Shape.rowMajor_val_one, Shape.rowMajor_val_two]
  show p.val = p.val * 1 + 0
  omega

/-- A vector of 128 entries as a 1 × 128 matrix: entry `(0, k)` is entry `k`
    (row-major position `0 · 128 + k = k`). -/
theorem row_apply (v : FVec Ideal S128 .f32) (k : Fin 128) :
    shapeCast S1x128 v shapeCasts_S128_S1x128 (ix2 (0 : Fin 1) k) = v (ix1 k) := by
  refine shapeCast_apply v shapeCasts_S128_S1x128 (ix2 (0 : Fin 1) k) (ix1 k) ?_
  rw [Shape.rowMajor_val_one, Shape.rowMajor_val_two]
  show k.val = 0 * 128 + k.val
  omega

/-- Rows `0 … 127` of a 384 × 128 matrix: its first block of rows. -/
theorem slice0_apply (W : FVec Ideal S384x128 .f32) (k q : Fin 128) :
    extractStridedSlice S128x128 ![0, 0] W slices_S384x128_S128x128_0_0 (ix2 k q) = Cert.Tgcn.wSlice W 0 k q := by
  refine extractStridedSlice_apply ![0, 0] W slices_S384x128_S128x128_0_0 (ix2 k q) _ (fun a => ?_)
  match a with
  | ⟨0, _⟩ => show 128 * 0 + k.val = 0 + k.val; omega
  | ⟨1, _⟩ => show q.val = 0 + q.val; omega

/-- Rows `128 … 255`: its second block of rows. -/
theorem slice1_apply (W : FVec Ideal S384x128 .f32) (k q : Fin 128) :
    extractStridedSlice S128x128 ![128, 0] W slices_S384x128_S128x128_128_0 (ix2 k q) = Cert.Tgcn.wSlice W 1 k q := by
  refine extractStridedSlice_apply ![128, 0] W slices_S384x128_S128x128_128_0 (ix2 k q) _ (fun a => ?_)
  match a with
  | ⟨0, _⟩ => show 128 * 1 + k.val = 128 + k.val; omega
  | ⟨1, _⟩ => show q.val = 0 + q.val; omega

/-- Rows `256 … 383`: its third block of rows. -/
theorem slice2_apply (W : FVec Ideal S384x128 .f32) (k q : Fin 128) :
    extractStridedSlice S128x128 ![256, 0] W slices_S384x128_S128x128_256_0 (ix2 k q) = Cert.Tgcn.wSlice W 2 k q := by
  refine extractStridedSlice_apply ![256, 0] W slices_S384x128_S128x128_256_0 (ix2 k q) _ (fun a => ?_)
  match a with
  | ⟨0, _⟩ => show 128 * 2 + k.val = 256 + k.val; omega
  | ⟨1, _⟩ => show q.val = 0 + q.val; omega

end Cert.KernelIdeal.KLayout

end
-- ==== Proof.LibMatmulSum.lean ====
/-
  A plain matrix product read at an index, at the ideal values.

  For dimension numbers that contract the left operand's axis 1 with the right operand's axis 0, with no batch axis — an
  [M, K] by [K, N] product into [M, N] — the operand indices at result index `j` and contraction index `q` are
  (j 0, q) and (q, j 1). So a `tpu.matmul` into a zero accumulator and the host's `dot_general` are, at every result
  index, the same sum over `k : Fin K` of `l (j 0, k) * r (k, j 1)` on the extended reals: no rounding, no order, and the
  change of float format on the way in is the identity.
-/
import Idealize.ShloMosaic.PureOps.Ideal.Laws
import Idealize.ShloMosaic.Lib.ValueIdx

noncomputable section

namespace Idealize.ShloMosaic.MatmulSum

open Idealize.ShloMosaic Idealize.ShloMosaic.ValueIdx

variable {M K N : Nat} (d : DotDims ⟨2, ![M, K]⟩ ⟨2, ![K, N]⟩ ⟨2, ![M, N]⟩)

/-- The one contraction axis has extent `K`. -/
theorem contr_rank (hlc : d.lhsContracting = [1]) : d.contr.rank = 1 := by
  rw [d.rank_contr, hlc]; rfl

theorem contr_size (hlc : d.lhsContracting = [1]) : d.contr.size ⟨0, by rw [contr_rank d hlc]; exact Nat.one_pos⟩ = K := by
  rw [d.size_contr 0 (by rw [hlc]; exact Nat.one_pos)]
  simp only [hlc, List.getElem_cons_zero]
  rfl

/-- Row coordinate of the left operand's index: the result's row. -/
theorem lhsIdx_row (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln])

/-- Column coordinate of the right operand's index: the result's column. -/
theorem rhsIdx_col (hln : d.lhsNonContracting = [0]) (hrn : d.rhsNonContracting = [1]) (hlb : d.lhsBatch = [])
    (hrb : d.rhsBatch = []) (j : (⟨2, ![M, N]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln, hrn])

/-- The contraction sum of a plain product, re-indexed over `Fin K`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix2 (j 0) k :=
    funext fun a => Fin.ext (by
      match a with
      | ⟨0, _⟩ => exact lhsIdx_row d hln hlb _ _
      | ⟨1, _⟩ => exact (d.lhsIdx_val_of_single hlc _ _).trans hk)
  have er : d.rhsIdx j ((contrEquiv1 d K (contr_rank d hlc) (contr_size d hlc)).symm k) = ix2 k (j 1) :=
    funext fun a => Fin.ext (by
      match a with
      | ⟨0, _⟩ => exact (d.rhsIdx_val_of_single hrc _ _).trans hk
      | ⟨1, _⟩ => exact rhsIdx_col d hln hrn hlb hrb _ _)
  exact congrArg₂ (fun a b => l a * r b) el er

/-- A `tpu.matmul` of a plain product into the zero splat, at an index: the sum of products over the shared axis. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (j : (⟨2, ![M, N]⟩ : Shape).Idx) :
    FloatOps.matmul d prec l r (constant ⟨2, ![M, N]⟩ .f32 0x00000000#32) j = ∑ k : Fin K, l (ix2 (j 0) k) * r (ix2 k (j 1)) :=
  (Ideal.matmul_constant_zero_apply d prec l r j).trans (sum_contr d hlc hrc hln hrn hlb hrb l r j)

/-- The host's `dot_general` of a plain product, at an index: the same sum. -/
theorem dotGeneral_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) :=
  (Ideal.dotGeneral_apply d prec sched l r j).trans (sum_contr d hlc hrc hln hrn hlb hrb l r j)

end Idealize.ShloMosaic.MatmulSum

end
-- ==== Proof.KPay0.lean ====
/-
  What the first kernel body leaves in its output block, read at one entry, over the extended reals.

  The body multiplies a 2000 × 128 block by a 128 × 128 matrix into a zero accumulator; the changes of float format on
  the way in and out are the identity on extended reals, so entry (p, q) is the sum over k of x0 (p, k) * x1 (k, q).
-/
import proofs.«102804_j19628000542754_2_alg».proof.Proof.Gen.KernelIdeal.Frame
import proofs.«102804_j19628000542754_2_alg».proof.Proof.Spec
import proofs.«102804_j19628000542754_2_alg».proof.Proof.LibMatmulSum
import Idealize.ShloMosaic.Lib.Pipeline.Value
import Idealize.ShloMosaic.Lib.ValueIdx

noncomputable section

namespace Cert.KernelIdeal.KPay

open Cert.KernelIdeal Cert.KernelIdeal.Gen Idealize.ShloMosaic Idealize.ShloMosaic.ValueIdx

/-- The zero offset of a whole-block rectangle, as a constant function. -/
private theorem off_zero : (![0, 0] : Fin 2 → Nat) = fun _ => 0 := funext fun a => by fin_cases a <;> rfl

/-- Entry (p, q) of the first body's output block: row p of the left block times column q of the matrix. -/
theorem out0_apply (x0 : Vec Ideal S2000x128 .f32) (x1 : Vec Ideal S128x128 .f32) (p : Fin 2000) (q : Fin 128) :
    out0_2 (F := Ideal) x0 x1 (ix2 p q) = Cert.Tgcn.rowDot (fun k => x0 (ix2 p k)) (fun k q' => x1 (ix2 k q')) q := by
  unfold out0_2
  rw [View.canon_unit_zero off_zero]
  simp only [View.ld_unit_zero (S := S2000x128) off_zero, View.ld_unit_zero (S := S128x128) off_zero]
  unfold k0_pay1
  -- the product into the zero accumulator is the sum of products; the format changes are the identity
  refine (MatmulSum.matmul_zero_apply dot_S2000x128_S128x128_S2000x128_1_0_0_1_n_n rfl rfl rfl rfl rfl rfl none
    (truncf FTy.bf16 x0 bitsLt_bf16_f32) (truncf FTy.bf16 x1 bitsLt_bf16_f32) (ix2 p q)).trans ?_
  rfl

end Cert.KernelIdeal.KPay

end
-- ==== Proof.KBlocks0.lean ====
/-
  Region 0 (the first projection x · W1), from blocks to the whole array.

  The grid has 25 points; point `t` reads rows `2000 t … 2000 t + 1999` of `x` and the whole of `W1`, and writes
  back rows `2000 t … 2000 t + 1999` of the result. Entry `(p, q)` of the block the body leaves is the row product
  of block row `p` with column `q` of `W1`; block row `p` at point `t` is row `2000 t + p` of the array; the 25
  blocks tile the 50000 rows. Hence the result array is, entry by entry, the row product of `x`'s row with `W1`.
-/
import proofs.«102804_j19628000542754_2_alg».proof.Proof.Gen.KernelIdeal.Frame
import proofs.«102804_j19628000542754_2_alg».proof.Proof.Spec
import proofs.«102804_j19628000542754_2_alg».proof.Proof.KPay0
import Idealize.ShloMosaic.Lib.Pipeline.Value
import Idealize.ShloMosaic.Lib.ValueIdx

set_option maxRecDepth 16384

noncomputable section

namespace Cert.KernelIdeal.KBlocks0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The projected features as one function of the two arrays: entry `(i₀, i₁)` is row `i₀` of the first times column
    `i₁` of the second. -/
def G0 (a0 : S50000x128.Idx → EReal) (a1 : S128x128.Idx → EReal) : S50000x128.Idx → EReal :=
  fun i => Cert.Tgcn.rowDot (fun k => a0 (ix2 (i 0) k)) (fun k q => a1 (ix2 k q)) (i 1)

/-- Window 0's block index over the grid: block row `t`, block column `0`. -/
theorem idx0_0 : ∀ t : Fin cfg0.N, win0_0.index t (0 : Fin 2) = t.val ∧ win0_0.index t (1 : Fin 2) = 0 :=
  (by decide +kernel : ∀ t : Fin grid0.N, _)

/-- Window 1's block index over the grid: the one block `(0, 0)`. -/
theorem idx0_1 : ∀ t : Fin cfg0.N, win0_1.index t (0 : Fin 2) = 0 ∧ win0_1.index t (1 : Fin 2) = 0 :=
  (by decide +kernel : ∀ t : Fin grid0.N, _)

/-- Window 2's block index over the grid: block row `t`, block column `0`. -/
theorem idx0_2 : ∀ t : Fin cfg0.N, win0_2.index t (0 : Fin 2) = t.val ∧ win0_2.index t (1 : Fin 2) = 0 :=
  (by decide +kernel : ∀ t : Fin grid0.N, _)

/-- Block row `p` of window 0 at point `t` is row `2000 t + p` of its array. -/
theorem blk0_0 (c : Dev nD) (t : Fin cfg0.N) (p : Fin 2000) (k : Fin 128) (h : t.val * 2000 + p.val < 50000) :
    iblk0 V c 0 t (ix2 p k) = V c main_arg0 (ix2 (⟨t.val * 2000 + p.val, h⟩ : Fin 50000) k) := by
  obtain ⟨e0, e1⟩ := idx0_0 t
  show V c main_arg0 (((cfg0.win 0).blk t).view.emb (ix2 p k)) = _
  refine congrArg _ ?_
  funext a; apply Fin.ext
  match a with
  | ⟨0, _⟩ => show win0_0.index t (0 : Fin 2) * 2000 + 1 * p.val = t.val * 2000 + p.val; omega
  | ⟨1, _⟩ => show win0_0.index t (1 : Fin 2) * 128 + 1 * k.val = k.val; omega

/-- Window 1's block is its whole array. -/
theorem blk0_1 (c : Dev nD) (t : Fin cfg0.N) (a : Fin 128) (b : Fin 128) :
    iblk0 V c 1 t (ix2 a b) = V c main_arg4 (ix2 a b) := by
  obtain ⟨e0, e1⟩ := idx0_1 t
  show V c main_arg4 (((cfg0.win 1).blk t).view.emb (ix2 a b)) = _
  refine congrArg _ ?_
  funext d; apply Fin.ext
  match d with
  | ⟨0, _⟩ => show win0_1.index t (0 : Fin 2) * 128 + 1 * a.val = a.val; omega
  | ⟨1, _⟩ => show win0_1.index t (1 : Fin 2) * 128 + 1 * b.val = b.val; omega

/-- What point `t` writes back is block `t` of `G0` of the arrays as the region finds them: the body's entry `(p, q)`
    is the row function of block row `p`, and block row `p` at point `t` is array row `2000 t + p`. -/
theorem flushed0_eq (c : Dev nD) (t : Fin cfg0.N) :
    (dat0 V c).flushed 2 t = ((cfg0.win 2).blk t).view.read (Elt Ideal) (G0 (V c main_arg0) (V c main_arg4)) := by
  show (cfg0.win 2).cut (grid0.coords t) ((dat0 V c).after 2 t) = _
  rw [after0_2]
  funext (j : S2000x128.Idx)
  obtain ⟨p, q, rfl⟩ : ∃ (p : Fin 2000) (q : Fin 128), j = ix2 p q := ⟨j 0, j 1, eq_ix2 j⟩
  obtain ⟨e4, e5⟩ := idx0_2 t
  have ht : t.val < 25 := t.isLt
  have hp : p.val < 2000 := p.isLt
  have hrow : t.val * 2000 + p.val < 50000 := by omega
  have hemb : ((cfg0.win 2).blk t).view.emb (ix2 p q) = ix2 (⟨t.val * 2000 + p.val, hrow⟩ : Fin 50000) q := by
    funext a; apply Fin.ext
    match a with
    | ⟨0, _⟩ => show win0_2.index t (0 : Fin 2) * 2000 + 1 * p.val = t.val * 2000 + p.val; omega
    | ⟨1, _⟩ => show win0_2.index t (1 : Fin 2) * 128 + 1 * q.val = q.val; omega
  rw [View.read_apply, hemb]
  show out0_2 (iblk0 V c 0 t) (iblk0 V c 1 t) (ix2 p q) = _
  refine (Cert.KernelIdeal.KPay.out0_apply _ _ p q).trans ?_
  unfold G0
  simp only [blk0_0 V c t _ _ hrow, blk0_1 V c t]
  rfl

/-- An index of the array is in point `t`'s block iff each coordinate is in the block's range on its axis. -/
theorem mem_blk0 (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v29).slice (win0_2.rect t)).set ↔ _
  rw [View.set_slice_whole, Rect.mem_set_unit]
  exact Iff.rfl

/-- The 25 blocks tile the array: row `r` is in the block of point `r / 2000`. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 2000 < 25 := by omega
  refine ⟨⟨(i 0).val / 2000, ht⟩, flush0_2 _, ?_⟩
  rw [mem_blk0]
  obtain ⟨e4, e5⟩ := idx0_2 ⟨(i 0).val / 2000, ht⟩
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 128 ≤ (i 1).val
      ∧ (i 1).val < win0_2.index ⟨(i 0).val / 2000, ht⟩ (1 : Fin 2) * 128 + 128
    rw [e5]; omega

/-- The result array after the region. -/
theorem final0 (c : Dev nD) : (dat0 V c).arrAt 2 cfg0.N = G0 (V c main_arg0) (V c main_arg4) :=
  (dat0 V c).arrAt_eq_of_cover 2 (G0 (V c main_arg0) (V c main_arg4)) (fun t _ => flushed0_eq V c t) cover0

end Cert.KernelIdeal.KBlocks0

end
-- ==== Proof.KPay1.lean ====
/-
  What the second kernel body leaves in its output block, read at one entry, over the extended reals.

  The body forms, entry by entry, the first layer's row  agg + (d * d) * xw + b  (the degree column and the bias row are
  broadcast along the other axis), takes its maximum with zero, and multiplies the 2000 × 128 result by a 128 × 128
  matrix into a zero accumulator. The changes of float format are the identity on extended reals.
-/
import proofs.«102804_j19628000542754_2_alg».proof.Proof.Gen.KernelIdeal.Frame
import proofs.«102804_j19628000542754_2_alg».proof.Proof.Spec
import proofs.«102804_j19628000542754_2_alg».proof.Proof.LibMatmulSum
import Idealize.ShloMosaic.Lib.Pipeline.Value
import Idealize.ShloMosaic.Lib.ValueLayout
import Idealize.ShloMosaic.Lib.ValueIdx

noncomputable section

namespace Cert.KernelIdeal.KPay

open Cert.KernelIdeal Cert.KernelIdeal.Gen Idealize.ShloMosaic Idealize.ShloMosaic.ValueIdx

/-- The zero offset of a whole-block rectangle, as a constant function. -/
private theorem off_zero : (![0, 0] : Fin 2 → Nat) = fun _ => 0 := funext fun a => by fin_cases a <;> rfl

/-- A column [a, 1] broadcast to [a, b], read at (p, c): the column's entry in row p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The layer's row before its activation, at entry (p, k): aggregation, self loop scaled by the squared degree factor,
    bias. -/
private theorem comb_apply (x0 : FVec Ideal S2000x128 .f32) (x1 : FVec Ideal S2000x128 .bf16) (x2 : FVec Ideal S2000x1 .f32)
    (x3 : FVec Ideal S1x128 .f32) (p : Fin 2000) (k : Fin 128) :
    addf (addf x0 (mulf (broadcastTo S2000x128 (mulf x2 x2) broadcasts_S2000x1_S2000x128) (extf .f32 x1 bitsLt_bf16_f32)))
        (broadcastTo S2000x128 x3 broadcasts_S1x128_S2000x128) (ix2 p k)
      = Cert.Tgcn.comb (x0 (ix2 p k)) (x1 (ix2 p k)) (x2 (ix2 p (0 : Fin 1))) (x3 (ix2 (0 : Fin 1) k)) := by
  show x0 (ix2 p k) + broadcastTo S2000x128 (mulf x2 x2) broadcasts_S2000x1_S2000x128 (ix2 p k) * x1 (ix2 p k)
      + broadcastTo S2000x128 x3 broadcasts_S1x128_S2000x128 (ix2 p k) = _
  rw [broadcastTo_a1_ab_apply (mulf x2 x2) broadcasts_S2000x1_S2000x128 p k,
    broadcastTo_1b_ab_apply x3 broadcasts_S1x128_S2000x128 p k]
  rfl

/-- Entry (p, q) of the second body's output block: the first layer's activated row p times column q of the matrix. -/
theorem out1_apply (x0 : Vec Ideal S2000x128 .f32) (x1 : Vec Ideal S2000x128 .bf16) (x2 : Vec Ideal S2000x1 .f32)
    (x3 : Vec Ideal S1x128 .f32) (x4 : Vec Ideal S128x128 .f32) (p : Fin 2000) (q : Fin 128) :
    out1_5 (F := Ideal) x0 x1 x2 x3 x4 (ix2 p q)
      = Cert.Tgcn.xw2Row (fun k => x0 (ix2 p k)) (fun k => x1 (ix2 p k)) (x2 (ix2 p (0 : Fin 1)))
          (fun k => x3 (ix2 (0 : Fin 1) k)) (fun k q' => x4 (ix2 k q')) q := by
  unfold out1_5
  rw [View.canon_unit_zero off_zero]
  simp only [View.ld_unit_zero (S := S2000x128) off_zero, View.ld_unit_zero (S := S2000x1) off_zero,
    View.ld_unit_zero (S := S1x128) off_zero, View.ld_unit_zero (S := S128x128) off_zero]
  unfold k1_pay1
  simp only [shapeCast_self]
  -- the product into the zero accumulator is the sum of products
  refine (MatmulSum.matmul_zero_apply dot_S2000x128_S128x128_S2000x128_1_0_0_1_n_n rfl rfl rfl rfl rfl rfl none _ _
    (ix2 p q)).trans ?_
  unfold Cert.Tgcn.xw2Row Cert.Tgcn.rowDot
  refine Finset.sum_congr rfl fun k _ => ?_
  -- the left factor is the maximum of the row's entry with zero; the right factor is the matrix entry
  refine congrArg₂ (· * ·) ?_ rfl
  exact congrArg (fun z => max z Cert.Tgcn.zeroF) (comb_apply x0 x1 x2 x3 p k)

end Cert.KernelIdeal.KPay

end
-- ==== Proof.KBlocks1.lean ====
/-
  Region 1 (first layer's combine and the second projection), from blocks to the whole array.

  Point `t` of the 25-point grid reads rows `2000 t … 2000 t + 1999` of the edge aggregation, of the projected
  features and of the column of inverse square-root degrees, and the whole bias row and weight matrix; it writes back
  the same rows of the result. Entry `(p, q)` of the block the body leaves is the second projection's row function of
  block row `p`; block row `p` at point `t` is array row `2000 t + p`; the blocks tile the rows.
-/
import proofs.«102804_j19628000542754_2_alg».proof.Proof.Gen.KernelIdeal.Frame
import proofs.«102804_j19628000542754_2_alg».proof.Proof.Spec
import proofs.«102804_j19628000542754_2_alg».proof.Proof.KPay1
import Idealize.ShloMosaic.Lib.Pipeline.Value
import Idealize.ShloMosaic.Lib.ValueIdx

set_option maxRecDepth 16384

noncomputable section

namespace Cert.KernelIdeal.KBlocks1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The second projection as one function of the five arrays the region reads. -/
def G1 (a0 a1 : S50000x128.Idx → EReal) (a2 : S50000x1.Idx → EReal) (a3 : S1x128.Idx → EReal) (a4 : S128x128.Idx → EReal) :
    S50000x128.Idx → EReal :=
  fun i => Cert.Tgcn.xw2Row (fun k => a0 (ix2 (i 0) k)) (fun k => a1 (ix2 (i 0) k)) (a2 (ix2 (i 0) (0 : Fin 1)))
    (fun k => a3 (ix2 (0 : Fin 1) k)) (fun k q => a4 (ix2 k q)) (i 1)

/-- Window 0's block index over the grid: block row `t`, block column `0`. -/
theorem idx1_0 : ∀ t : Fin cfg1.N, win1_0.index t (0 : Fin 2) = t.val ∧ win1_0.index t (1 : Fin 2) = 0 :=
  (by decide +kernel : ∀ t : Fin grid1.N, _)

/-- Window 1's block index over the grid: block row `t`, block column `0`. -/
theorem idx1_1 : ∀ t : Fin cfg1.N, win1_1.index t (0 : Fin 2) = t.val ∧ win1_1.index t (1 : Fin 2) = 0 :=
  (by decide +kernel : ∀ t : Fin grid1.N, _)

/-- Window 2's block index over the grid: block row `t`, block column `0`. -/
theorem idx1_2 : ∀ t : Fin cfg1.N, win1_2.index t (0 : Fin 2) = t.val ∧ win1_2.index t (1 : Fin 2) = 0 :=
  (by decide +kernel : ∀ t : Fin grid1.N, _)

/-- Window 3's block index over the grid: the one block `(0, 0)`. -/
theorem idx1_3 : ∀ t : Fin cfg1.N, win1_3.index t (0 : Fin 2) = 0 ∧ win1_3.index t (1 : Fin 2) = 0 :=
  (by decide +kernel : ∀ t : Fin grid1.N, _)

/-- Window 4's block index over the grid: the one block `(0, 0)`. -/
theorem idx1_4 : ∀ t : Fin cfg1.N, win1_4.index t (0 : Fin 2) = 0 ∧ win1_4.index t (1 : Fin 2) = 0 :=
  (by decide +kernel : ∀ t : Fin grid1.N, _)

/-- Window 5's block index over the grid: block row `t`, block column `0`. -/
theorem idx1_5 : ∀ t : Fin cfg1.N, win1_5.index t (0 : Fin 2) = t.val ∧ win1_5.index t (1 : Fin 2) = 0 :=
  (by decide +kernel : ∀ t : Fin grid1.N, _)

/-- Block row `p` of window 0 at point `t` is row `2000 t + p` of its array. -/
theorem blk1_0 (c : Dev nD) (t : Fin cfg1.N) (p : Fin 2000) (k : Fin 128) (h : t.val * 2000 + p.val < 50000) :
    iblk1 V c 0 t (ix2 p k) = V c main_v43 (ix2 (⟨t.val * 2000 + p.val, h⟩ : Fin 50000) k) := by
  obtain ⟨e0, e1⟩ := idx1_0 t
  show V c main_v43 (((cfg1.win 0).blk t).view.emb (ix2 p k)) = _
  refine congrArg _ ?_
  funext a; apply Fin.ext
  match a with
  | ⟨0, _⟩ => show win1_0.index t (0 : Fin 2) * 2000 + 1 * p.val = t.val * 2000 + p.val; omega
  | ⟨1, _⟩ => show win1_0.index t (1 : Fin 2) * 128 + 1 * k.val = k.val; omega

/-- Block row `p` of window 1 at point `t` is row `2000 t + p` of its array. -/
theorem blk1_1 (c : Dev nD) (t : Fin cfg1.N) (p : Fin 2000) (k : Fin 128) (h : t.val * 2000 + p.val < 50000) :
    iblk1 V c 1 t (ix2 p k) = V c main_v29 (ix2 (⟨t.val * 2000 + p.val, h⟩ : Fin 50000) k) := by
  obtain ⟨e0, e1⟩ := idx1_1 t
  show V c main_v29 (((cfg1.win 1).blk t).view.emb (ix2 p k)) = _
  refine congrArg _ ?_
  funext a; apply Fin.ext
  match a with
  | ⟨0, _⟩ => show win1_1.index t (0 : Fin 2) * 2000 + 1 * p.val = t.val * 2000 + p.val; omega
  | ⟨1, _⟩ => show win1_1.index t (1 : Fin 2) * 128 + 1 * k.val = k.val; omega

/-- Block row `p` of window 2 at point `t` is row `2000 t + p` of its array. -/
theorem blk1_2 (c : Dev nD) (t : Fin cfg1.N) (p : Fin 2000) (k : Fin 1) (h : t.val * 2000 + p.val < 50000) :
    iblk1 V c 2 t (ix2 p k) = V c main_v26 (ix2 (⟨t.val * 2000 + p.val, h⟩ : Fin 50000) k) := by
  obtain ⟨e0, e1⟩ := idx1_2 t
  show V c main_v26 (((cfg1.win 2).blk t).view.emb (ix2 p k)) = _
  refine congrArg _ ?_
  funext a; apply Fin.ext
  match a with
  | ⟨0, _⟩ => show win1_2.index t (0 : Fin 2) * 2000 + 1 * p.val = t.val * 2000 + p.val; omega
  | ⟨1, _⟩ => show win1_2.index t (1 : Fin 2) * 1 + 1 * k.val = k.val; omega

/-- Window 3's block is its whole array. -/
theorem blk1_3 (c : Dev nD) (t : Fin cfg1.N) (a : Fin 1) (b : Fin 128) :
    iblk1 V c 3 t (ix2 a b) = V c main_v27 (ix2 a b) := by
  obtain ⟨e0, e1⟩ := idx1_3 t
  show V c main_v27 (((cfg1.win 3).blk t).view.emb (ix2 a b)) = _
  refine congrArg _ ?_
  funext d; apply Fin.ext
  match d with
  | ⟨0, _⟩ => show win1_3.index t (0 : Fin 2) * 1 + 1 * a.val = a.val; omega
  | ⟨1, _⟩ => show win1_3.index t (1 : Fin 2) * 128 + 1 * b.val = b.val; omega

/-- Window 4's block is its whole array. -/
theorem blk1_4 (c : Dev nD) (t : Fin cfg1.N) (a : Fin 128) (b : Fin 128) :
    iblk1 V c 4 t (ix2 a b) = V c main_arg6 (ix2 a b) := by
  obtain ⟨e0, e1⟩ := idx1_4 t
  show V c main_arg6 (((cfg1.win 4).blk t).view.emb (ix2 a b)) = _
  refine congrArg _ ?_
  funext d; apply Fin.ext
  match d with
  | ⟨0, _⟩ => show win1_4.index t (0 : Fin 2) * 128 + 1 * a.val = a.val; omega
  | ⟨1, _⟩ => show win1_4.index t (1 : Fin 2) * 128 + 1 * b.val = b.val; omega

/-- What point `t` writes back is block `t` of `G1` of the arrays as the region finds them: the body's entry `(p, q)`
    is the row function of block row `p`, and block row `p` at point `t` is array row `2000 t + p`. -/
theorem flushed1_eq (c : Dev nD) (t : Fin cfg1.N) :
    (dat1 V c).flushed 5 t = ((cfg1.win 5).blk t).view.read (Elt Ideal) (G1 (V c main_v43) (V c main_v29) (V c main_v26) (V c main_v27) (V c main_arg6)) := by
  show (cfg1.win 5).cut (grid1.coords t) ((dat1 V c).after 5 t) = _
  rw [after1_5]
  funext (j : S2000x128.Idx)
  obtain ⟨p, q, rfl⟩ : ∃ (p : Fin 2000) (q : Fin 128), j = ix2 p q := ⟨j 0, j 1, eq_ix2 j⟩
  obtain ⟨e4, e5⟩ := idx1_5 t
  have ht : t.val < 25 := t.isLt
  have hp : p.val < 2000 := p.isLt
  have hrow : t.val * 2000 + p.val < 50000 := by omega
  have hemb : ((cfg1.win 5).blk t).view.emb (ix2 p q) = ix2 (⟨t.val * 2000 + p.val, hrow⟩ : Fin 50000) q := by
    funext a; apply Fin.ext
    match a with
    | ⟨0, _⟩ => show win1_5.index t (0 : Fin 2) * 2000 + 1 * p.val = t.val * 2000 + p.val; omega
    | ⟨1, _⟩ => show win1_5.index t (1 : Fin 2) * 128 + 1 * q.val = q.val; omega
  rw [View.read_apply, hemb]
  show out1_5 (iblk1 V c 0 t) (iblk1 V c 1 t) (iblk1 V c 2 t) (iblk1 V c 3 t) (iblk1 V c 4 t) (ix2 p q) = _
  refine (Cert.KernelIdeal.KPay.out1_apply _ _ _ _ _ p q).trans ?_
  unfold G1
  simp only [blk1_0 V c t _ _ hrow, blk1_1 V c t _ _ hrow, blk1_2 V c t _ _ hrow, blk1_3 V c t, blk1_4 V c t]
  rfl

/-- An index of the array is in point `t`'s block iff each coordinate is in the block's range on its axis. -/
theorem mem_blk1 (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v44).slice (win1_5.rect t)).set ↔ _
  rw [View.set_slice_whole, Rect.mem_set_unit]
  exact Iff.rfl

/-- The 25 blocks tile the array: row `r` is in the block of point `r / 2000`. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have ht : (i 0).val / 2000 < 25 := by omega
  refine ⟨⟨(i 0).val / 2000, ht⟩, flush1_5 _, ?_⟩
  rw [mem_blk1]
  obtain ⟨e4, e5⟩ := idx1_5 ⟨(i 0).val / 2000, ht⟩
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win1_5.index ⟨(i 0).val / 2000, ht⟩ (1 : Fin 2) * 128 ≤ (i 1).val
      ∧ (i 1).val < win1_5.index ⟨(i 0).val / 2000, ht⟩ (1 : Fin 2) * 128 + 128
    rw [e5]; omega

/-- The result array after the region. -/
theorem final1 (c : Dev nD) : (dat1 V c).arrAt 5 cfg1.N = G1 (V c main_v43) (V c main_v29) (V c main_v26) (V c main_v27) (V c main_arg6) :=
  (dat1 V c).arrAt_eq_of_cover 5 (G1 (V c main_v43) (V c main_v29) (V c main_v26) (V c main_v27) (V c main_arg6)) (fun t _ => flushed1_eq V c t) cover1

end Cert.KernelIdeal.KBlocks1

end
-- ==== Proof.KPay2.lean ====
/-
  What the third kernel body leaves in its output block, read at one entry, over the extended reals.

  The body forms the second layer's activated row g (the logistic function of  agg + (d * d) * xw + b), then the gated
  recurrent update of the hidden row h from the input row x and g: each gate is the sum of three 128-term row products
  (128 × 128 matrix products into zero accumulators) and a bias row broadcast along the rows; the update gate u and the
  reset gate r are logistic, the candidate is the hyperbolic tangent of the gate fed with r * h, and the new row is
  u * h + (1 - u) * candidate. The changes of float format are the identity on extended reals.
-/
import proofs.«102804_j19628000542754_2_alg».proof.Proof.Gen.KernelIdeal.Frame
import proofs.«102804_j19628000542754_2_alg».proof.Proof.Spec
import proofs.«102804_j19628000542754_2_alg».proof.Proof.LibMatmulSum
import Idealize.ShloMosaic.Lib.Pipeline.Value
import Idealize.ShloMosaic.Lib.ValueLayout
import Idealize.ShloMosaic.Lib.ValueIdx

noncomputable section

namespace Cert.KernelIdeal.KPay

open Cert.KernelIdeal Cert.KernelIdeal.Gen Idealize.ShloMosaic Idealize.ShloMosaic.ValueIdx

/-- The zero offset of a whole-block rectangle, as a constant function. -/
private theorem off_zero : (![0, 0] : Fin 2 → Nat) = fun _ => 0 := funext fun a => by fin_cases a <;> rfl

/-- A column [a, 1] broadcast to [a, b], read at (p, c): the column's entry in row p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The layer's row before its activation, at entry (p, k): aggregation, self loop scaled by the squared degree factor,
    bias. -/
private theorem comb_apply (x0 : FVec Ideal S2000x128 .f32) (x1 : FVec Ideal S2000x128 .bf16) (x2 : FVec Ideal S2000x1 .f32)
    (x3 : FVec Ideal S1x128 .f32) (p : Fin 2000) (k : Fin 128) :
    addf (addf x0 (mulf (broadcastTo S2000x128 (mulf x2 x2) broadcasts_S2000x1_S2000x128) (extf .f32 x1 bitsLt_bf16_f32)))
        (broadcastTo S2000x128 x3 broadcasts_S1x128_S2000x128) (ix2 p k)
      = Cert.Tgcn.comb (x0 (ix2 p k)) (x1 (ix2 p k)) (x2 (ix2 p (0 : Fin 1))) (x3 (ix2 (0 : Fin 1) k)) := by
  show x0 (ix2 p k) + broadcastTo S2000x128 (mulf x2 x2) broadcasts_S2000x1_S2000x128 (ix2 p k) * x1 (ix2 p k)
      + broadcastTo S2000x128 x3 broadcasts_S1x128_S2000x128 (ix2 p k) = _
  rw [broadcastTo_a1_ab_apply (mulf x2 x2) broadcasts_S2000x1_S2000x128 p k,
    broadcastTo_1b_ab_apply x3 broadcasts_S1x128_S2000x128 p k]
  rfl

/-- The second layer's activated row at entry (p, k). -/
private theorem pay3_apply (x2 : FVec Ideal S2000x1 .f32) (x1 : FVec Ideal S2000x128 .bf16) (x0 : FVec Ideal S2000x128 .f32)
    (x3 : FVec Ideal S1x128 .f32) (p : Fin 2000) (k : Fin 128) :
    k2_pay3 (F := Ideal) x2 x1 x0 x3 (ix2 p k)
      = Cert.Tgcn.gRow (fun k => x0 (ix2 p k)) (fun k => x1 (ix2 p k)) (x2 (ix2 p (0 : Fin 1))) (fun k => x3 (ix2 (0 : Fin 1) k)) k := by
  unfold k2_pay3
  simp only [shapeCast_self]
  exact congrArg Ideal.logistic (comb_apply x0 x1 x2 x3 p k)

/-- A 2000 × 128 block times a 128 × 128 matrix into the zero accumulator, at entry (p, q): the row product. -/
private theorem mm_apply (A : FVec Ideal S2000x128 .bf16) (W : FVec Ideal S128x128 .f32) (p : Fin 2000) (q : Fin 128) :
    matmul dot_S2000x128_S128x128_S2000x128_1_0_0_1_n_n none A (truncf .bf16 W bitsLt_bf16_f32)
        (constant S2000x128 .f32 0x00000000#32) (ix2 p q)
      = Cert.Tgcn.rowDot (fun k => A (ix2 p k)) (fun k q' => W (ix2 k q')) q :=
  (MatmulSum.matmul_zero_apply dot_S2000x128_S128x128_S2000x128_1_0_0_1_n_n rfl rfl rfl rfl rfl rfl none A
    (truncf .bf16 W bitsLt_bf16_f32) (ix2 p q)).trans rfl

/-- Three such products added, then a bias row broadcast along the rows, at entry (p, q): a gate before its
    activation. -/
private theorem gate_apply (A B C : FVec Ideal S2000x128 .bf16) (W1 W2 W3 : FVec Ideal S128x128 .f32)
    (b : FVec Ideal S1x128 .f32) (p : Fin 2000) (q : Fin 128) :
    addf (addf (addf
          (matmul dot_S2000x128_S128x128_S2000x128_1_0_0_1_n_n none A (truncf .bf16 W1 bitsLt_bf16_f32) (constant S2000x128 .f32 0x00000000#32))
          (matmul dot_S2000x128_S128x128_S2000x128_1_0_0_1_n_n none B (truncf .bf16 W2 bitsLt_bf16_f32) (constant S2000x128 .f32 0x00000000#32)))
          (matmul dot_S2000x128_S128x128_S2000x128_1_0_0_1_n_n none C (truncf .bf16 W3 bitsLt_bf16_f32) (constant S2000x128 .f32 0x00000000#32)))
        (broadcastTo S2000x128 b broadcasts_S1x128_S2000x128) (ix2 p q)
      = Cert.Tgcn.gateLin (fun k => A (ix2 p k)) (fun k => B (ix2 p k)) (fun k => C (ix2 p k))
          (fun k q' => W1 (ix2 k q')) (fun k q' => W2 (ix2 k q')) (fun k q' => W3 (ix2 k q')) (fun k => b (ix2 (0 : Fin 1) k)) q := by
  unfold Cert.Tgcn.gateLin
  exact congrArg₂ (· + ·)
    (congrArg₂ (· + ·) (congrArg₂ (· + ·) (mm_apply A W1 p q) (mm_apply B W2 p q)) (mm_apply C W3 p q))
    (broadcastTo_1b_ab_apply b broadcasts_S1x128_S2000x128 p q)

/-- The update gate at entry (p, q): the logistic function of the gate fed with the input row, the activated row and the
    hidden row. -/
private theorem u_apply (x2 : FVec Ideal S2000x1 .f32) (x1 : FVec Ideal S2000x128 .bf16) (x0 : FVec Ideal S2000x128 .f32)
    (x3 : FVec Ideal S1x128 .f32) (x4 x5 : FVec Ideal S2000x128 .f32) (W1 W2 W3 : FVec Ideal S128x128 .f32)
    (b : FVec Ideal S1x128 .f32) (p : Fin 2000) (q : Fin 128) :
    k2_pay6 (F := Ideal) (k2_pay5 x2 x1 x0 x3 x4 x5 W1 W2 W3) b (ix2 p q)
      = Ideal.logistic (Cert.Tgcn.gateLin (fun k => x4 (ix2 p k))
          (Cert.Tgcn.gRow (fun k => x0 (ix2 p k)) (fun k => x1 (ix2 p k)) (x2 (ix2 p (0 : Fin 1))) (fun k => x3 (ix2 (0 : Fin 1) k)))
          (fun k => x5 (ix2 p k))
          (fun k q' => W1 (ix2 k q')) (fun k q' => W2 (ix2 k q')) (fun k q' => W3 (ix2 k q')) (fun k => b (ix2 (0 : Fin 1) k)) q) := by
  unfold k2_pay6 k2_pay5
  simp only [shapeCast_self]
  refine (congrArg Ideal.logistic (gate_apply (k2_pay2 x4) (k2_pay3 x2 x1 x0 x3) (k2_pay4 x5) W1 W2 W3 b p q)).trans ?_
  -- the middle row is the activated row; the outer two are the blocks' rows (a format change is the identity)
  exact congrArg (fun g => Ideal.logistic (Cert.Tgcn.gateLin (fun k => x4 (ix2 p k)) g (fun k => x5 (ix2 p k))
      (fun k q' => W1 (ix2 k q')) (fun k q' => W2 (ix2 k q')) (fun k q' => W3 (ix2 k q')) (fun k => b (ix2 (0 : Fin 1) k)) q))
    (funext (pay3_apply x2 x1 x0 x3 p))

/-- The candidate gate before its bias at entry (p, q): the input row's and the middle row's products, and the product of
    the reset-gated hidden row, whose entry k is the logistic function of the reset gate times the hidden entry. -/
private theorem pay7_apply (H : FVec Ideal S2000x128 .f32) (X G Hb : FVec Ideal S2000x128 .bf16)
    (W10 W11 W12 : FVec Ideal S128x128 .f32) (b13 : FVec Ideal S1x128 .f32) (W14 W15 W16 : FVec Ideal S128x128 .f32)
    (p : Fin 2000) (q : Fin 128) (g : Fin 128 → EReal) (hG : ∀ k, G (ix2 p k) = g k) :
    k2_pay7 (F := Ideal) H X G Hb W10 W11 W12 b13 W14 W15 W16 (ix2 p q)
      = Cert.Tgcn.rowDot (fun k => X (ix2 p k)) (fun k q' => W14 (ix2 k q')) q
        + Cert.Tgcn.rowDot g (fun k q' => W15 (ix2 k q')) q
        + Cert.Tgcn.rowDot (fun k => Ideal.logistic (Cert.Tgcn.gateLin (fun k => X (ix2 p k)) g (fun k => Hb (ix2 p k))
              (fun k q' => W10 (ix2 k q')) (fun k q' => W11 (ix2 k q')) (fun k q' => W12 (ix2 k q'))
              (fun k => b13 (ix2 (0 : Fin 1) k)) k) * H (ix2 p k))
            (fun k q' => W16 (ix2 k q')) q := by
  have hg : (fun k => G (ix2 p k)) = g := funext hG
  subst hg
  unfold k2_pay7
  simp only [shapeCast_self]
  refine (congrArg₂ (· + ·) (congrArg₂ (· + ·) (mm_apply X W14 p q) (mm_apply G W15 p q)) (mm_apply _ W16 p q)).trans ?_
  refine congrArg₂ (· + ·) rfl ?_
  refine congrArg (fun f => Cert.Tgcn.rowDot f (fun k q' => W16 (ix2 k q')) q) (funext fun k => ?_)
  exact congrArg (fun z => Ideal.logistic z * H (ix2 p k)) (gate_apply X G Hb W10 W11 W12 b13 p k)

/-- The last payload at entry (p, q): the update gate times the hidden entry, plus one minus the gate times the
    hyperbolic tangent of the candidate gate with its bias. -/
private theorem pay1_apply (H u c : FVec Ideal S2000x128 .f32) (b : FVec Ideal S1x128 .f32) (p : Fin 2000) (q : Fin 128) :
    k2_pay1 (F := Ideal) H u c b (ix2 p q)
      = u (ix2 p q) * H (ix2 p q)
        + (Cert.Tgcn.oneF - u (ix2 p q)) * Ideal.tanh (c (ix2 p q) + b (ix2 (0 : Fin 1) q)) := by
  unfold k2_pay1
  simp only [shapeCast_self]
  show u (ix2 p q) * H (ix2 p q)
      + (Cert.Tgcn.oneF - u (ix2 p q)) * Ideal.tanh (c (ix2 p q) + broadcastTo S2000x128 b broadcasts_S1x128_S2000x128 (ix2 p q)) = _
  rw [broadcastTo_1b_ab_apply b broadcasts_S1x128_S2000x128 p q]

/-- Entry (p, q) of the third body's output block: the updated hidden row. -/
theorem out2_apply (x0 : Vec Ideal S2000x128 .f32) (x1 : Vec Ideal S2000x128 .bf16) (x2 : Vec Ideal S2000x1 .f32)
    (x3 : Vec Ideal S1x128 .f32) (x4 x5 : Vec Ideal S2000x128 .f32)
    (x6 x7 x8 : Vec Ideal S128x128 .f32) (x9 : Vec Ideal S1x128 .f32) (x10 x11 x12 : Vec Ideal S128x128 .f32)
    (x13 : Vec Ideal S1x128 .f32) (x14 x15 x16 : Vec Ideal S128x128 .f32) (x17 : Vec Ideal S1x128 .f32)
    (p : Fin 2000) (q : Fin 128) :
    out2_18 (F := Ideal) x0 x1 x2 x3 x4 x5 x6 x7 x8 x9 x10 x11 x12 x13 x14 x15 x16 x17 (ix2 p q)
      = Cert.Tgcn.outRow (fun k => x4 (ix2 p k))
          (Cert.Tgcn.gRow (fun k => x0 (ix2 p k)) (fun k => x1 (ix2 p k)) (x2 (ix2 p (0 : Fin 1))) (fun k => x3 (ix2 (0 : Fin 1) k)))
          (fun k => x5 (ix2 p k))
          (fun k q' => x6 (ix2 k q')) (fun k q' => x7 (ix2 k q')) (fun k q' => x8 (ix2 k q')) (fun k => x9 (ix2 (0 : Fin 1) k))
          (fun k q' => x10 (ix2 k q')) (fun k q' => x11 (ix2 k q')) (fun k q' => x12 (ix2 k q')) (fun k => x13 (ix2 (0 : Fin 1) k))
          (fun k q' => x14 (ix2 k q')) (fun k q' => x15 (ix2 k q')) (fun k q' => x16 (ix2 k q')) (fun k => x17 (ix2 (0 : Fin 1) k)) q := by
  unfold out2_18
  rw [View.canon_unit_zero off_zero]
  simp only [View.ld_unit_zero (S := S2000x128) off_zero, View.ld_unit_zero (S := S2000x1) off_zero,
    View.ld_unit_zero (S := S1x128) off_zero, View.ld_unit_zero (S := S128x128) off_zero]
  refine (pay1_apply x5 _ _ x17 p q).trans ?_
  rw [u_apply x2 x1 x0 x3 x4 x5 x6 x7 x8 x9 p q,
    pay7_apply x5 (k2_pay2 x4) (k2_pay3 x2 x1 x0 x3) (k2_pay4 x5) x10 x11 x12 x13 x14 x15 x16 p q _
      (pay3_apply x2 x1 x0 x3 p)]
  rfl

end Cert.KernelIdeal.KPay

end
-- ==== Proof.KBlocks2.lean ====
/-
  Region 2 (second layer's combine and the gated update), from blocks to the whole array.

  Point `t` of the 25-point grid reads rows `2000 t … 2000 t + 1999` of the second edge aggregation, of the second
  projection, of the column of inverse square-root degrees, of `x` and of `h`, and the whole of the bias rows and of
  the nine 128 × 128 weight blocks; it writes back the same rows of the result. Entry `(p, q)` of the block the body
  leaves is the update's row function of block row `p`; block row `p` at point `t` is array row `2000 t + p`; the
  blocks tile the rows.
-/
import proofs.«102804_j19628000542754_2_alg».proof.Proof.Gen.KernelIdeal.Frame
import proofs.«102804_j19628000542754_2_alg».proof.Proof.Spec
import proofs.«102804_j19628000542754_2_alg».proof.Proof.KPay2
import Idealize.ShloMosaic.Lib.Pipeline.Value
import Idealize.ShloMosaic.Lib.ValueIdx

set_option maxRecDepth 16384

noncomputable section

namespace Cert.KernelIdeal.KBlocks2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The updated hidden state as one function of the eighteen arrays the region reads. -/
def G2 (a0 a1 : S50000x128.Idx → EReal) (a2 : S50000x1.Idx → EReal) (a3 : S1x128.Idx → EReal) (a4 a5 : S50000x128.Idx → EReal)
    (a6 a7 a8 : S128x128.Idx → EReal) (a9 : S1x128.Idx → EReal) (a10 a11 a12 : S128x128.Idx → EReal) (a13 : S1x128.Idx → EReal)
    (a14 a15 a16 : S128x128.Idx → EReal) (a17 : S1x128.Idx → EReal) : S50000x128.Idx → EReal :=
  fun i => Cert.Tgcn.outRow (fun k => a4 (ix2 (i 0) k))
    (Cert.Tgcn.gRow (fun k => a0 (ix2 (i 0) k)) (fun k => a1 (ix2 (i 0) k)) (a2 (ix2 (i 0) (0 : Fin 1))) (fun k => a3 (ix2 (0 : Fin 1) k)))
    (fun k => a5 (ix2 (i 0) k))
    (fun k q => a6 (ix2 k q)) (fun k q => a7 (ix2 k q)) (fun k q => a8 (ix2 k q)) (fun k => a9 (ix2 (0 : Fin 1) k))
    (fun k q => a10 (ix2 k q)) (fun k q => a11 (ix2 k q)) (fun k q => a12 (ix2 k q)) (fun k => a13 (ix2 (0 : Fin 1) k))
    (fun k q => a14 (ix2 k q)) (fun k q => a15 (ix2 k q)) (fun k q => a16 (ix2 k q)) (fun k => a17 (ix2 (0 : Fin 1) k)) (i 1)

/-- Window 0's block index over the grid: block row `t`, block column `0`. -/
theorem idx2_0 : ∀ t : Fin cfg2.N, win2_0.index t (0 : Fin 2) = t.val ∧ win2_0.index t (1 : Fin 2) = 0 :=
  (by decide +kernel : ∀ t : Fin grid2.N, _)

/-- Window 1's block index over the grid: block row `t`, block column `0`. -/
theorem idx2_1 : ∀ t : Fin cfg2.N, win2_1.index t (0 : Fin 2) = t.val ∧ win2_1.index t (1 : Fin 2) = 0 :=
  (by decide +kernel : ∀ t : Fin grid2.N, _)

/-- Window 2's block index over the grid: block row `t`, block column `0`. -/
theorem idx2_2 : ∀ t : Fin cfg2.N, win2_2.index t (0 : Fin 2) = t.val ∧ win2_2.index t (1 : Fin 2) = 0 :=
  (by decide +kernel : ∀ t : Fin grid2.N, _)

/-- Window 3's block index over the grid: the one block `(0, 0)`. -/
theorem idx2_3 : ∀ t : Fin cfg2.N, win2_3.index t (0 : Fin 2) = 0 ∧ win2_3.index t (1 : Fin 2) = 0 :=
  (by decide +kernel : ∀ t : Fin grid2.N, _)

/-- Window 4's block index over the grid: block row `t`, block column `0`. -/
theorem idx2_4 : ∀ t : Fin cfg2.N, win2_4.index t (0 : Fin 2) = t.val ∧ win2_4.index t (1 : Fin 2) = 0 :=
  (by decide +kernel : ∀ t : Fin grid2.N, _)

/-- Window 5's block index over the grid: block row `t`, block column `0`. -/
theorem idx2_5 : ∀ t : Fin cfg2.N, win2_5.index t (0 : Fin 2) = t.val ∧ win2_5.index t (1 : Fin 2) = 0 :=
  (by decide +kernel : ∀ t : Fin grid2.N, _)

/-- Window 6's block index over the grid: the one block `(0, 0)`. -/
theorem idx2_6 : ∀ t : Fin cfg2.N, win2_6.index t (0 : Fin 2) = 0 ∧ win2_6.index t (1 : Fin 2) = 0 :=
  (by decide +kernel : ∀ t : Fin grid2.N, _)

/-- Window 7's block index over the grid: the one block `(0, 0)`. -/
theorem idx2_7 : ∀ t : Fin cfg2.N, win2_7.index t (0 : Fin 2) = 0 ∧ win2_7.index t (1 : Fin 2) = 0 :=
  (by decide +kernel : ∀ t : Fin grid2.N, _)

/-- Window 8's block index over the grid: the one block `(0, 0)`. -/
theorem idx2_8 : ∀ t : Fin cfg2.N, win2_8.index t (0 : Fin 2) = 0 ∧ win2_8.index t (1 : Fin 2) = 0 :=
  (by decide +kernel : ∀ t : Fin grid2.N, _)

/-- Window 9's block index over the grid: the one block `(0, 0)`. -/
theorem idx2_9 : ∀ t : Fin cfg2.N, win2_9.index t (0 : Fin 2) = 0 ∧ win2_9.index t (1 : Fin 2) = 0 :=
  (by decide +kernel : ∀ t : Fin grid2.N, _)

/-- Window 10's block index over the grid: the one block `(0, 0)`. -/
theorem idx2_10 : ∀ t : Fin cfg2.N, win2_10.index t (0 : Fin 2) = 0 ∧ win2_10.index t (1 : Fin 2) = 0 :=
  (by decide +kernel : ∀ t : Fin grid2.N, _)

/-- Window 11's block index over the grid: the one block `(0, 0)`. -/
theorem idx2_11 : ∀ t : Fin cfg2.N, win2_11.index t (0 : Fin 2) = 0 ∧ win2_11.index t (1 : Fin 2) = 0 :=
  (by decide +kernel : ∀ t : Fin grid2.N, _)

/-- Window 12's block index over the grid: the one block `(0, 0)`. -/
theorem idx2_12 : ∀ t : Fin cfg2.N, win2_12.index t (0 : Fin 2) = 0 ∧ win2_12.index t (1 : Fin 2) = 0 :=
  (by decide +kernel : ∀ t : Fin grid2.N, _)

/-- Window 13's block index over the grid: the one block `(0, 0)`. -/
theorem idx2_13 : ∀ t : Fin cfg2.N, win2_13.index t (0 : Fin 2) = 0 ∧ win2_13.index t (1 : Fin 2) = 0 :=
  (by decide +kernel : ∀ t : Fin grid2.N, _)

/-- Window 14's block index over the grid: the one block `(0, 0)`. -/
theorem idx2_14 : ∀ t : Fin cfg2.N, win2_14.index t (0 : Fin 2) = 0 ∧ win2_14.index t (1 : Fin 2) = 0 :=
  (by decide +kernel : ∀ t : Fin grid2.N, _)

/-- Window 15's block index over the grid: the one block `(0, 0)`. -/
theorem idx2_15 : ∀ t : Fin cfg2.N, win2_15.index t (0 : Fin 2) = 0 ∧ win2_15.index t (1 : Fin 2) = 0 :=
  (by decide +kernel : ∀ t : Fin grid2.N, _)

/-- Window 16's block index over the grid: the one block `(0, 0)`. -/
theorem idx2_16 : ∀ t : Fin cfg2.N, win2_16.index t (0 : Fin 2) = 0 ∧ win2_16.index t (1 : Fin 2) = 0 :=
  (by decide +kernel : ∀ t : Fin grid2.N, _)

/-- Window 17's block index over the grid: the one block `(0, 0)`. -/
theorem idx2_17 : ∀ t : Fin cfg2.N, win2_17.index t (0 : Fin 2) = 0 ∧ win2_17.index t (1 : Fin 2) = 0 :=
  (by decide +kernel : ∀ t : Fin grid2.N, _)

/-- Window 18's block index over the grid: block row `t`, block column `0`. -/
theorem idx2_18 : ∀ t : Fin cfg2.N, win2_18.index t (0 : Fin 2) = t.val ∧ win2_18.index t (1 : Fin 2) = 0 :=
  (by decide +kernel : ∀ t : Fin grid2.N, _)

/-- Block row `p` of window 0 at point `t` is row `2000 t + p` of its array. -/
theorem blk2_0 (c : Dev nD) (t : Fin cfg2.N) (p : Fin 2000) (k : Fin 128) (h : t.val * 2000 + p.val < 50000) :
    iblk2 V c 0 t (ix2 p k) = V c main_v58 (ix2 (⟨t.val * 2000 + p.val, h⟩ : Fin 50000) k) := by
  obtain ⟨e0, e1⟩ := idx2_0 t
  show V c main_v58 (((cfg2.win 0).blk t).view.emb (ix2 p k)) = _
  refine congrArg _ ?_
  funext a; apply Fin.ext
  match a with
  | ⟨0, _⟩ => show win2_0.index t (0 : Fin 2) * 2000 + 1 * p.val = t.val * 2000 + p.val; omega
  | ⟨1, _⟩ => show win2_0.index t (1 : Fin 2) * 128 + 1 * k.val = k.val; omega

/-- Block row `p` of window 1 at point `t` is row `2000 t + p` of its array. -/
theorem blk2_1 (c : Dev nD) (t : Fin cfg2.N) (p : Fin 2000) (k : Fin 128) (h : t.val * 2000 + p.val < 50000) :
    iblk2 V c 1 t (ix2 p k) = V c main_v44 (ix2 (⟨t.val * 2000 + p.val, h⟩ : Fin 50000) k) := by
  obtain ⟨e0, e1⟩ := idx2_1 t
  show V c main_v44 (((cfg2.win 1).blk t).view.emb (ix2 p k)) = _
  refine congrArg _ ?_
  funext a; apply Fin.ext
  match a with
  | ⟨0, _⟩ => show win2_1.index t (0 : Fin 2) * 2000 + 1 * p.val = t.val * 2000 + p.val; omega
  | ⟨1, _⟩ => show win2_1.index t (1 : Fin 2) * 128 + 1 * k.val = k.val; omega

/-- Block row `p` of window 2 at point `t` is row `2000 t + p` of its array. -/
theorem blk2_2 (c : Dev nD) (t : Fin cfg2.N) (p : Fin 2000) (k : Fin 1) (h : t.val * 2000 + p.val < 50000) :
    iblk2 V c 2 t (ix2 p k) = V c main_v26 (ix2 (⟨t.val * 2000 + p.val, h⟩ : Fin 50000) k) := by
  obtain ⟨e0, e1⟩ := idx2_2 t
  show V c main_v26 (((cfg2.win 2).blk t).view.emb (ix2 p k)) = _
  refine congrArg _ ?_
  funext a; apply Fin.ext
  match a with
  | ⟨0, _⟩ => show win2_2.index t (0 : Fin 2) * 2000 + 1 * p.val = t.val * 2000 + p.val; omega
  | ⟨1, _⟩ => show win2_2.index t (1 : Fin 2) * 1 + 1 * k.val = k.val; omega

/-- Window 3's block is its whole array. -/
theorem blk2_3 (c : Dev nD) (t : Fin cfg2.N) (a : Fin 1) (b : Fin 128) :
    iblk2 V c 3 t (ix2 a b) = V c main_v28 (ix2 a b) := by
  obtain ⟨e0, e1⟩ := idx2_3 t
  show V c main_v28 (((cfg2.win 3).blk t).view.emb (ix2 a b)) = _
  refine congrArg _ ?_
  funext d; apply Fin.ext
  match d with
  | ⟨0, _⟩ => show win2_3.index t (0 : Fin 2) * 1 + 1 * a.val = a.val; omega
  | ⟨1, _⟩ => show win2_3.index t (1 : Fin 2) * 128 + 1 * b.val = b.val; omega

/-- Block row `p` of window 4 at point `t` is row `2000 t + p` of its array. -/
theorem blk2_4 (c : Dev nD) (t : Fin cfg2.N) (p : Fin 2000) (k : Fin 128) (h : t.val * 2000 + p.val < 50000) :
    iblk2 V c 4 t (ix2 p k) = V c main_arg0 (ix2 (⟨t.val * 2000 + p.val, h⟩ : Fin 50000) k) := by
  obtain ⟨e0, e1⟩ := idx2_4 t
  show V c main_arg0 (((cfg2.win 4).blk t).view.emb (ix2 p k)) = _
  refine congrArg _ ?_
  funext a; apply Fin.ext
  match a with
  | ⟨0, _⟩ => show win2_4.index t (0 : Fin 2) * 2000 + 1 * p.val = t.val * 2000 + p.val; omega
  | ⟨1, _⟩ => show win2_4.index t (1 : Fin 2) * 128 + 1 * k.val = k.val; omega

/-- Block row `p` of window 5 at point `t` is row `2000 t + p` of its array. -/
theorem blk2_5 (c : Dev nD) (t : Fin cfg2.N) (p : Fin 2000) (k : Fin 128) (h : t.val * 2000 + p.val < 50000) :
    iblk2 V c 5 t (ix2 p k) = V c main_arg3 (ix2 (⟨t.val * 2000 + p.val, h⟩ : Fin 50000) k) := by
  obtain ⟨e0, e1⟩ := idx2_5 t
  show V c main_arg3 (((cfg2.win 5).blk t).view.emb (ix2 p k)) = _
  refine congrArg _ ?_
  funext a; apply Fin.ext
  match a with
  | ⟨0, _⟩ => show win2_5.index t (0 : Fin 2) * 2000 + 1 * p.val = t.val * 2000 + p.val; omega
  | ⟨1, _⟩ => show win2_5.index t (1 : Fin 2) * 128 + 1 * k.val = k.val; omega

/-- Window 6's block is its whole array. -/
theorem blk2_6 (c : Dev nD) (t : Fin cfg2.N) (a : Fin 128) (b : Fin 128) :
    iblk2 V c 6 t (ix2 a b) = V c main_v59 (ix2 a b) := by
  obtain ⟨e0, e1⟩ := idx2_6 t
  show V c main_v59 (((cfg2.win 6).blk t).view.emb (ix2 a b)) = _
  refine congrArg _ ?_
  funext d; apply Fin.ext
  match d with
  | ⟨0, _⟩ => show win2_6.index t (0 : Fin 2) * 128 + 1 * a.val = a.val; omega
  | ⟨1, _⟩ => show win2_6.index t (1 : Fin 2) * 128 + 1 * b.val = b.val; omega

/-- Window 7's block is its whole array. -/
theorem blk2_7 (c : Dev nD) (t : Fin cfg2.N) (a : Fin 128) (b : Fin 128) :
    iblk2 V c 7 t (ix2 a b) = V c main_v60 (ix2 a b) := by
  obtain ⟨e0, e1⟩ := idx2_7 t
  show V c main_v60 (((cfg2.win 7).blk t).view.emb (ix2 a b)) = _
  refine congrArg _ ?_
  funext d; apply Fin.ext
  match d with
  | ⟨0, _⟩ => show win2_7.index t (0 : Fin 2) * 128 + 1 * a.val = a.val; omega
  | ⟨1, _⟩ => show win2_7.index t (1 : Fin 2) * 128 + 1 * b.val = b.val; omega

/-- Window 8's block is its whole array. -/
theorem blk2_8 (c : Dev nD) (t : Fin cfg2.N) (a : Fin 128) (b : Fin 128) :
    iblk2 V c 8 t (ix2 a b) = V c main_v61 (ix2 a b) := by
  obtain ⟨e0, e1⟩ := idx2_8 t
  show V c main_v61 (((cfg2.win 8).blk t).view.emb (ix2 a b)) = _
  refine congrArg _ ?_
  funext d; apply Fin.ext
  match d with
  | ⟨0, _⟩ => show win2_8.index t (0 : Fin 2) * 128 + 1 * a.val = a.val; omega
  | ⟨1, _⟩ => show win2_8.index t (1 : Fin 2) * 128 + 1 * b.val = b.val; omega

/-- Window 9's block is its whole array. -/
theorem blk2_9 (c : Dev nD) (t : Fin cfg2.N) (a : Fin 1) (b : Fin 128) :
    iblk2 V c 9 t (ix2 a b) = V c main_v68 (ix2 a b) := by
  obtain ⟨e0, e1⟩ := idx2_9 t
  show V c main_v68 (((cfg2.win 9).blk t).view.emb (ix2 a b)) = _
  refine congrArg _ ?_
  funext d; apply Fin.ext
  match d with
  | ⟨0, _⟩ => show win2_9.index t (0 : Fin 2) * 1 + 1 * a.val = a.val; omega
  | ⟨1, _⟩ => show win2_9.index t (1 : Fin 2) * 128 + 1 * b.val = b.val; omega

/-- Window 10's block is its whole array. -/
theorem blk2_10 (c : Dev nD) (t : Fin cfg2.N) (a : Fin 128) (b : Fin 128) :
    iblk2 V c 10 t (ix2 a b) = V c main_v62 (ix2 a b) := by
  obtain ⟨e0, e1⟩ := idx2_10 t
  show V c main_v62 (((cfg2.win 10).blk t).view.emb (ix2 a b)) = _
  refine congrArg _ ?_
  funext d; apply Fin.ext
  match d with
  | ⟨0, _⟩ => show win2_10.index t (0 : Fin 2) * 128 + 1 * a.val = a.val; omega
  | ⟨1, _⟩ => show win2_10.index t (1 : Fin 2) * 128 + 1 * b.val = b.val; omega

/-- Window 11's block is its whole array. -/
theorem blk2_11 (c : Dev nD) (t : Fin cfg2.N) (a : Fin 128) (b : Fin 128) :
    iblk2 V c 11 t (ix2 a b) = V c main_v63 (ix2 a b) := by
  obtain ⟨e0, e1⟩ := idx2_11 t
  show V c main_v63 (((cfg2.win 11).blk t).view.emb (ix2 a b)) = _
  refine congrArg _ ?_
  funext d; apply Fin.ext
  match d with
  | ⟨0, _⟩ => show win2_11.index t (0 : Fin 2) * 128 + 1 * a.val = a.val; omega
  | ⟨1, _⟩ => show win2_11.index t (1 : Fin 2) * 128 + 1 * b.val = b.val; omega

/-- Window 12's block is its whole array. -/
theorem blk2_12 (c : Dev nD) (t : Fin cfg2.N) (a : Fin 128) (b : Fin 128) :
    iblk2 V c 12 t (ix2 a b) = V c main_v64 (ix2 a b) := by
  obtain ⟨e0, e1⟩ := idx2_12 t
  show V c main_v64 (((cfg2.win 12).blk t).view.emb (ix2 a b)) = _
  refine congrArg _ ?_
  funext d; apply Fin.ext
  match d with
  | ⟨0, _⟩ => show win2_12.index t (0 : Fin 2) * 128 + 1 * a.val = a.val; omega
  | ⟨1, _⟩ => show win2_12.index t (1 : Fin 2) * 128 + 1 * b.val = b.val; omega

/-- Window 13's block is its whole array. -/
theorem blk2_13 (c : Dev nD) (t : Fin cfg2.N) (a : Fin 1) (b : Fin 128) :
    iblk2 V c 13 t (ix2 a b) = V c main_v69 (ix2 a b) := by
  obtain ⟨e0, e1⟩ := idx2_13 t
  show V c main_v69 (((cfg2.win 13).blk t).view.emb (ix2 a b)) = _
  refine congrArg _ ?_
  funext d; apply Fin.ext
  match d with
  | ⟨0, _⟩ => show win2_13.index t (0 : Fin 2) * 1 + 1 * a.val = a.val; omega
  | ⟨1, _⟩ => show win2_13.index t (1 : Fin 2) * 128 + 1 * b.val = b.val; omega

/-- Window 14's block is its whole array. -/
theorem blk2_14 (c : Dev nD) (t : Fin cfg2.N) (a : Fin 128) (b : Fin 128) :
    iblk2 V c 14 t (ix2 a b) = V c main_v65 (ix2 a b) := by
  obtain ⟨e0, e1⟩ := idx2_14 t
  show V c main_v65 (((cfg2.win 14).blk t).view.emb (ix2 a b)) = _
  refine congrArg _ ?_
  funext d; apply Fin.ext
  match d with
  | ⟨0, _⟩ => show win2_14.index t (0 : Fin 2) * 128 + 1 * a.val = a.val; omega
  | ⟨1, _⟩ => show win2_14.index t (1 : Fin 2) * 128 + 1 * b.val = b.val; omega

/-- Window 15's block is its whole array. -/
theorem blk2_15 (c : Dev nD) (t : Fin cfg2.N) (a : Fin 128) (b : Fin 128) :
    iblk2 V c 15 t (ix2 a b) = V c main_v66 (ix2 a b) := by
  obtain ⟨e0, e1⟩ := idx2_15 t
  show V c main_v66 (((cfg2.win 15).blk t).view.emb (ix2 a b)) = _
  refine congrArg _ ?_
  funext d; apply Fin.ext
  match d with
  | ⟨0, _⟩ => show win2_15.index t (0 : Fin 2) * 128 + 1 * a.val = a.val; omega
  | ⟨1, _⟩ => show win2_15.index t (1 : Fin 2) * 128 + 1 * b.val = b.val; omega

/-- Window 16's block is its whole array. -/
theorem blk2_16 (c : Dev nD) (t : Fin cfg2.N) (a : Fin 128) (b : Fin 128) :
    iblk2 V c 16 t (ix2 a b) = V c main_v67 (ix2 a b) := by
  obtain ⟨e0, e1⟩ := idx2_16 t
  show V c main_v67 (((cfg2.win 16).blk t).view.emb (ix2 a b)) = _
  refine congrArg _ ?_
  funext d; apply Fin.ext
  match d with
  | ⟨0, _⟩ => show win2_16.index t (0 : Fin 2) * 128 + 1 * a.val = a.val; omega
  | ⟨1, _⟩ => show win2_16.index t (1 : Fin 2) * 128 + 1 * b.val = b.val; omega

/-- Window 17's block is its whole array. -/
theorem blk2_17 (c : Dev nD) (t : Fin cfg2.N) (a : Fin 1) (b : Fin 128) :
    iblk2 V c 17 t (ix2 a b) = V c main_v70 (ix2 a b) := by
  obtain ⟨e0, e1⟩ := idx2_17 t
  show V c main_v70 (((cfg2.win 17).blk t).view.emb (ix2 a b)) = _
  refine congrArg _ ?_
  funext d; apply Fin.ext
  match d with
  | ⟨0, _⟩ => show win2_17.index t (0 : Fin 2) * 1 + 1 * a.val = a.val; omega
  | ⟨1, _⟩ => show win2_17.index t (1 : Fin 2) * 128 + 1 * b.val = b.val; omega

/-- What point `t` writes back is block `t` of `G2` of the arrays as the region finds them: the body's entry `(p, q)`
    is the row function of block row `p`, and block row `p` at point `t` is array row `2000 t + p`. -/
theorem flushed2_eq (c : Dev nD) (t : Fin cfg2.N) :
    (dat2 V c).flushed 18 t = ((cfg2.win 18).blk t).view.read (Elt Ideal) (G2 (V c main_v58) (V c main_v44) (V c main_v26) (V c main_v28) (V c main_arg0) (V c main_arg3) (V c main_v59) (V c main_v60) (V c main_v61) (V c main_v68) (V c main_v62) (V c main_v63) (V c main_v64) (V c main_v69) (V c main_v65) (V c main_v66) (V c main_v67) (V c main_v70)) := by
  show (cfg2.win 18).cut (grid2.coords t) ((dat2 V c).after 18 t) = _
  rw [after2_18]
  funext (j : S2000x128.Idx)
  obtain ⟨p, q, rfl⟩ : ∃ (p : Fin 2000) (q : Fin 128), j = ix2 p q := ⟨j 0, j 1, eq_ix2 j⟩
  obtain ⟨e4, e5⟩ := idx2_18 t
  have ht : t.val < 25 := t.isLt
  have hp : p.val < 2000 := p.isLt
  have hrow : t.val * 2000 + p.val < 50000 := by omega
  have hemb : ((cfg2.win 18).blk t).view.emb (ix2 p q) = ix2 (⟨t.val * 2000 + p.val, hrow⟩ : Fin 50000) q := by
    funext a; apply Fin.ext
    match a with
    | ⟨0, _⟩ => show win2_18.index t (0 : Fin 2) * 2000 + 1 * p.val = t.val * 2000 + p.val; omega
    | ⟨1, _⟩ => show win2_18.index t (1 : Fin 2) * 128 + 1 * q.val = q.val; omega
  rw [View.read_apply, hemb]
  show out2_18 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (ix2 p q) = _
  refine (Cert.KernelIdeal.KPay.out2_apply _ _ _ _ _ _ _ _ _ _ _ _ _ _ _ _ _ _ p q).trans ?_
  unfold G2
  simp only [blk2_0 V c t _ _ hrow, blk2_1 V c t _ _ hrow, blk2_2 V c t _ _ hrow, blk2_3 V c t, blk2_4 V c t _ _ hrow, blk2_5 V c t _ _ hrow, blk2_6 V c t, blk2_7 V c t, blk2_8 V c t, blk2_9 V c t, blk2_10 V c t, blk2_11 V c t, blk2_12 V c t, blk2_13 V c t, blk2_14 V c t, blk2_15 V c t, blk2_16 V c t, blk2_17 V c t]
  rfl

/-- An index of the array is in point `t`'s block iff each coordinate is in the block's range on its axis. -/
theorem mem_blk2 (t : Fin cfg2.N) (i : S50000x128.Idx) :
    i ∈ ((cfg2.win 18).blk t).view.set ↔ ∀ a : Fin 2, win2_18.index t a * S2000x128.size a ≤ (i a).val
      ∧ (i a).val < win2_18.index t a * S2000x128.size a + S2000x128.size a := by
  show i ∈ ((View.whole main_v71).slice (win2_18.rect t)).set ↔ _
  rw [View.set_slice_whole, Rect.mem_set_unit]
  exact Iff.rfl

/-- The 25 blocks tile the array: row `r` is in the block of point `r / 2000`. -/
theorem cover2 (i : S50000x128.Idx) :
    ∃ t : Fin cfg2.N, (cfg2.win 18).flush t = true ∧ i ∈ ((cfg2.win 18).blk t).view.set := by
  have hi0 : (i 0).val < 50000 := (i 0).isLt
  have hi1 : (i 1).val < 128 := (i 1).isLt
  have ht : (i 0).val / 2000 < 25 := by omega
  refine ⟨⟨(i 0).val / 2000, ht⟩, flush2_18 _, ?_⟩
  rw [mem_blk2]
  obtain ⟨e4, e5⟩ := idx2_18 ⟨(i 0).val / 2000, ht⟩
  intro a
  match a with
  | ⟨0, _⟩ =>
    show win2_18.index ⟨(i 0).val / 2000, ht⟩ (0 : Fin 2) * 2000 ≤ (i 0).val
      ∧ (i 0).val < win2_18.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win2_18.index ⟨(i 0).val / 2000, ht⟩ (1 : Fin 2) * 128 ≤ (i 1).val
      ∧ (i 1).val < win2_18.index ⟨(i 0).val / 2000, ht⟩ (1 : Fin 2) * 128 + 128
    rw [e5]; omega

/-- The result array after the region. -/
theorem final2 (c : Dev nD) : (dat2 V c).arrAt 18 cfg2.N = G2 (V c main_v58) (V c main_v44) (V c main_v26) (V c main_v28) (V c main_arg0) (V c main_arg3) (V c main_v59) (V c main_v60) (V c main_v61) (V c main_v68) (V c main_v62) (V c main_v63) (V c main_v64) (V c main_v69) (V c main_v65) (V c main_v66) (V c main_v67) (V c main_v70) :=
  (dat2 V c).arrAt_eq_of_cover 18 (G2 (V c main_v58) (V c main_v44) (V c main_v26) (V c main_v28) (V c main_arg0) (V c main_arg3) (V c main_v59) (V c main_v60) (V c main_v61) (V c main_v68) (V c main_v62) (V c main_v63) (V c main_v64) (V c main_v69) (V c main_v65) (V c main_v66) (V c main_v67) (V c main_v70)) (fun t _ => flushed2_eq V c t) cover2

end Cert.KernelIdeal.KBlocks2

end
-- ==== Proof.KFold.lean ====
/-
  The contents of the idealized kernel's buffers at each boundary between its host operations and its three kernel
  regions, read back to the argument arrays.

  The host operations before the first region compute, from the edge list and the edge weights, the source and
  destination ids, the inverse square-root degrees, the edge coefficients and the reshaped biases; a buffer that a
  segment does not write keeps its contents across it. Each value is identified with the corresponding stage of the
  reference program as a whole array: the same operations applied to the same arrays give the same array, and the
  one place where the two programs differ before the regions — the degree as `1 + (0 + Σ w)` over the raw
  destination ids against `1 + Σ w` over the wrapped ids — is where the hypothesis that no id is negative is used.
-/
import proofs.«102804_j19628000542754_2_alg».proof.Proof.Gen.KernelIdeal.Frame
import proofs.«102804_j19628000542754_2_alg».proof.Proof.Gen.ReferenceIdeal.Read
import proofs.«102804_j19628000542754_2_alg».proof.Proof.Deg
import proofs.«102804_j19628000542754_2_alg».proof.Proof.RStages
import proofs.«102804_j19628000542754_2_alg».proof.Proof.RRead
import proofs.«102804_j19628000542754_2_alg».proof.Proof.KLayout
import proofs.«102804_j19628000542754_2_alg».proof.Proof.KBlocks0
import proofs.«102804_j19628000542754_2_alg».proof.Proof.KBlocks1
import proofs.«102804_j19628000542754_2_alg».proof.Proof.KBlocks2
import Idealize.ShloMosaic.Lib.StableHlo.Run

set_option maxRecDepth 16384

noncomputable section

namespace Cert.KernelIdeal.KFold

open Cert.KernelIdeal Cert.KernelIdeal.Gen
open Idealize.ShloMosaic Idealize.ShloMosaic.TcCoe Idealize.ShloMosaic.StableHlo Idealize.SL.Sem

/-- A host stretch leaves a buffer none of its operations writes as it found it. -/
macro "host_unwritten" : tactic => `(tactic| (
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

variable (m : (ℓ : Loc nD τ sig) → Buf (Elt Ideal) ℓ) (ρ : Dev nD → PrngReg) (c : Dev nD)

/-- Core `c`'s argument array `b` as launched. -/
abbrev X (b : Ref sig .tc) : Buf (Elt Ideal) ((c : Thread nD τ).loc b) := m ((c : Thread nD τ).loc b)

open Cert.ReferenceIdeal.Read (val_main_v1 val_main_v3 val_main_v4 val_main_v13 val_main_v29 val_main_v42 val_main_v52 val_main_v61 val_main_v77 val_main_v90 val_main_v104 val_main_v137)
open Idealize.ShloMosaic.ValueIdx

/-- The hypothesis on the edge list: no id is negative. -/
abbrev NonNeg : Prop := ∀ i : S2x1600000.Idx, 0 ≤ (X m c main_arg1 i).toInt

/-! ## Steps across a segment that does not write the buffer -/

theorem step2 (b : Ref sig .tc) (hne : ∀ w, Pipeline.arrRef spec0 w ≠ b) {v : Buf (Elt Ideal) ((c : Thread nD τ).loc b)}
    (h : W1 m ρ c (Proc.devRef .tc b) = v) : W2 m ρ c (Proc.devRef .tc b) = v := (W2_of_ne m ρ c b hne).trans h
theorem step3 (b : Ref sig .tc) (hun : StableHlo.after hostOps1 (W2 m ρ c) (Proc.devRef .tc b) = W2 m ρ c (Proc.devRef .tc b))
    {v : Buf (Elt Ideal) ((c : Thread nD τ).loc b)} (h : W2 m ρ c (Proc.devRef .tc b) = v) : W3 m ρ c (Proc.devRef .tc b) = v := hun.trans h
theorem step4 (b : Ref sig .tc) (hne : ∀ w, Pipeline.arrRef spec1 w ≠ b) {v : Buf (Elt Ideal) ((c : Thread nD τ).loc b)}
    (h : W3 m ρ c (Proc.devRef .tc b) = v) : W4 m ρ c (Proc.devRef .tc b) = v := (W4_of_ne m ρ c b hne).trans h
theorem step5 (b : Ref sig .tc) (hun : StableHlo.after hostOps2 (W4 m ρ c) (Proc.devRef .tc b) = W4 m ρ c (Proc.devRef .tc b))
    {v : Buf (Elt Ideal) ((c : Thread nD τ).loc b)} (h : W4 m ρ c (Proc.devRef .tc b) = v) : W5 m ρ c (Proc.devRef .tc b) = v := hun.trans h
theorem step1 (b : Ref sig .tc) (hun : StableHlo.after hostOps0 (W0 m ρ c) (Proc.devRef .tc b) = W0 m ρ c (Proc.devRef .tc b)) :
    W1 m ρ c (Proc.devRef .tc b) = X m c b := hun

/-! ## After the first host stretch -/

theorem W1_v1 : W1 m ρ c (Proc.devRef .tc main_v1) = val_main_v1 (F := Ideal) (X m c main_arg1) := by
  show StableHlo.after hostOps0 (W0 m ρ c) (Proc.devRef .tc main_v1) = _
  dsimp only [hostOps0]
  after_results_simp
  rfl

theorem W1_v3 : W1 m ρ c (Proc.devRef .tc main_v3) = val_main_v3 (F := Ideal) (X m c main_arg1) := by
  show StableHlo.after hostOps0 (W0 m ρ c) (Proc.devRef .tc main_v3) = _
  dsimp only [hostOps0]
  after_results_simp
  rfl

/-- The inverse square-root degrees as the kernel computes them: `1 + (0 + Σ w)` over the raw destination ids. -/
theorem W1_v9raw : W1 m ρ c (Proc.devRef .tc main_v9)
    = Host.rsqrt (F := Ideal) (addf (broadcastInDim S50000 ![] Facts₀.bcast_S_S50000 (constant (F := Ideal) S_ .f32 0x3F800000#32))
        (Host.scatterAdd (F := Ideal) scatter_S50000_S1600000x1_S1600000_n_0_0_1
          (broadcastInDim S50000 ![] Facts₀.bcast_S_S50000 (constant (F := Ideal) S_ .f32 0x00000000#32))
          (broadcastInDim S1600000x1 ![0] Facts₀.bcast_S1600000_S1600000x1_0 (val_main_v3 (F := Ideal) (X m c main_arg1)))
          (X m c main_arg2))) := by
  show StableHlo.after hostOps0 (W0 m ρ c) (Proc.devRef .tc main_v9) = _
  dsimp only [hostOps0]
  after_results_simp
  rfl

/-- With no negative id they are the reference's. -/
theorem W1_v9 (h : NonNeg m c) :
    W1 m ρ c (Proc.devRef .tc main_v9) = val_main_v13 (F := Ideal) (X m c main_arg1) (X m c main_arg2) := by
  rw [W1_v9raw, Cert.Deg.deg_eq, Cert.ReferenceIdeal.RStages.v13_eq _ _ h]

/-- The edge coefficients: the same gathers and products of the same inverse square-root degrees. -/
theorem W1_v25 (h : NonNeg m c) :
    W1 m ρ c (Proc.devRef .tc main_v25) = val_main_v29 (F := Ideal) (X m c main_arg1) (X m c main_arg2) := by
  show StableHlo.after hostOps0 (W0 m ρ c) (Proc.devRef .tc main_v25) = _
  dsimp only [hostOps0]
  after_results_simp
  rw [Cert.Deg.deg_eq]
  unfold val_main_v29 Cert.ReferenceIdeal.Read.val_main_v21 Cert.ReferenceIdeal.Read.val_main_v28 Cert.ReferenceIdeal.Read.val_main_v20
  rw [Cert.ReferenceIdeal.RStages.v13_eq _ _ h]
  rfl

/-- The column of inverse square-root degrees, entry `(p, 0)`. -/
theorem W1_v26 (h : NonNeg m c) (p : Fin 50000) :
    V1 m ρ c main_v26 (ix2 p (0 : Fin 1)) = val_main_v13 (F := Ideal) (X m c main_arg1) (X m c main_arg2) (ix1 p) := by
  have e : W1 m ρ c (Proc.devRef .tc main_v26)
      = shapeCast S50000x1 (W1 m ρ c (Proc.devRef .tc main_v9)) Facts₀.shapeCasts_S50000_S50000x1 := by
    show StableHlo.after hostOps0 (W0 m ρ c) (Proc.devRef .tc main_v26)
      = shapeCast S50000x1 (StableHlo.after hostOps0 (W0 m ρ c) (Proc.devRef .tc main_v9)) Facts₀.shapeCasts_S50000_S50000x1
    dsimp only [hostOps0]
    after_results_simp
    rfl
  show W1 m ρ c (Proc.devRef .tc main_v26) (ix2 p (0 : Fin 1)) = _
  rw [e, W1_v9 m ρ c h]
  exact Cert.KernelIdeal.KLayout.col_apply _ p

/-- The first bias as a row, entry `(0, k)`. -/
theorem W1_v27 (k : Fin 128) : V1 m ρ c main_v27 (ix2 (0 : Fin 1) k) = X m c main_arg5 (ix1 k) := by
  have e : W1 m ρ c (Proc.devRef .tc main_v27) = shapeCast S1x128 (X m c main_arg5) Facts₀.shapeCasts_S128_S1x128 := by
    show StableHlo.after hostOps0 (W0 m ρ c) (Proc.devRef .tc main_v27) = _
    dsimp only [hostOps0]
    after_results_simp
    rfl
  show W1 m ρ c (Proc.devRef .tc main_v27) (ix2 (0 : Fin 1) k) = _
  rw [e]
  exact Cert.KernelIdeal.KLayout.row_apply _ k

/-- The second bias as a row, entry `(0, k)`. -/
theorem W1_v28 (k : Fin 128) : V1 m ρ c main_v28 (ix2 (0 : Fin 1) k) = X m c main_arg7 (ix1 k) := by
  have e : W1 m ρ c (Proc.devRef .tc main_v28) = shapeCast S1x128 (X m c main_arg7) Facts₀.shapeCasts_S128_S1x128 := by
    show StableHlo.after hostOps0 (W0 m ρ c) (Proc.devRef .tc main_v28) = _
    dsimp only [hostOps0]
    after_results_simp
    rfl
  show W1 m ρ c (Proc.devRef .tc main_v28) (ix2 (0 : Fin 1) k) = _
  rw [e]
  exact Cert.KernelIdeal.KLayout.row_apply _ k

/-! ## After region 0 -/

theorem W1_arg0 : W1 m ρ c (Proc.devRef .tc main_arg0) = X m c main_arg0 := step1 m ρ c main_arg0 (by host_unwritten)
theorem W1_arg4 : W1 m ρ c (Proc.devRef .tc main_arg4) = X m c main_arg4 := step1 m ρ c main_arg4 (by host_unwritten)

/-- The first projection is the reference's. -/
theorem W2_v29 : W2 m ρ c (Proc.devRef .tc main_v29) = val_main_v4 (F := Ideal) (X m c main_arg0) (X m c main_arg4) := by
  rw [show W2 m ρ c (Proc.devRef .tc main_v29) = (dat0 (V1 m ρ) c).arrAt 2 cfg0.N from W2_arr m ρ c 2,
    Cert.KernelIdeal.KBlocks0.final0 (V1 m ρ) c]
  funext (i : S50000x128.Idx)
  obtain ⟨p, q, rfl⟩ : ∃ (p : Fin 50000) (q : Fin 128), i = ix2 p q := ⟨i 0, i 1, eq_ix2 i⟩
  rw [Cert.ReferenceIdeal.RRead.v4_apply]
  show Cert.Tgcn.rowDot (fun k => W1 m ρ c (Proc.devRef .tc main_arg0) (ix2 p k)) (fun k q' => W1 m ρ c (Proc.devRef .tc main_arg4) (ix2 k q')) q = _
  rw [W1_arg0, W1_arg4]

/-! ## After the second host stretch and region 1 -/

theorem W2_v1 : W2 m ρ c (Proc.devRef .tc main_v1) = val_main_v1 (F := Ideal) (X m c main_arg1) :=
  step2 m ρ c main_v1 (by decide) (W1_v1 m ρ c)
theorem W2_v3 : W2 m ρ c (Proc.devRef .tc main_v3) = val_main_v3 (F := Ideal) (X m c main_arg1) :=
  step2 m ρ c main_v3 (by decide) (W1_v3 m ρ c)
theorem W2_v25 (h : NonNeg m c) :
    W2 m ρ c (Proc.devRef .tc main_v25) = val_main_v29 (F := Ideal) (X m c main_arg1) (X m c main_arg2) :=
  step2 m ρ c main_v25 (by decide) (W1_v25 m ρ c h)

/-- The first edge aggregation is the reference's: the same gather, product and scatter-add of the same arrays. -/
theorem W3_v43 (h : NonNeg m c) : W3 m ρ c (Proc.devRef .tc main_v43)
    = val_main_v42 (F := Ideal) (X m c main_arg0) (X m c main_arg1) (X m c main_arg2) (X m c main_arg4) := by
  show StableHlo.after hostOps1 (W2 m ρ c) (Proc.devRef .tc main_v43) = _
  dsimp only [hostOps1]
  after_results_simp
  rw [W2_v1, W2_v3, W2_v25 m ρ c h, W2_v29]
  rfl

theorem W3_v29 : W3 m ρ c (Proc.devRef .tc main_v29) = val_main_v4 (F := Ideal) (X m c main_arg0) (X m c main_arg4) :=
  step3 m ρ c main_v29 (by host_unwritten) (W2_v29 m ρ c)
theorem W3_v26 : W3 m ρ c (Proc.devRef .tc main_v26) = W1 m ρ c (Proc.devRef .tc main_v26) :=
  step3 m ρ c main_v26 (by host_unwritten) (step2 m ρ c main_v26 (by decide) rfl)
theorem W3_v27 : W3 m ρ c (Proc.devRef .tc main_v27) = W1 m ρ c (Proc.devRef .tc main_v27) :=
  step3 m ρ c main_v27 (by host_unwritten) (step2 m ρ c main_v27 (by decide) rfl)
theorem W3_arg6 : W3 m ρ c (Proc.devRef .tc main_arg6) = X m c main_arg6 :=
  step3 m ρ c main_arg6 (by host_unwritten) (step2 m ρ c main_arg6 (by decide) (step1 m ρ c main_arg6 (by host_unwritten)))

/-- The second projection is the reference's. -/
theorem W4_v44 (h : NonNeg m c) : W4 m ρ c (Proc.devRef .tc main_v44)
    = val_main_v52 (F := Ideal) (X m c main_arg0) (X m c main_arg1) (X m c main_arg2) (X m c main_arg4) (X m c main_arg5) (X m c main_arg6) := by
  rw [show W4 m ρ c (Proc.devRef .tc main_v44) = (dat1 (V3 m ρ) c).arrAt 5 cfg1.N from W4_arr m ρ c 5,
    Cert.KernelIdeal.KBlocks1.final1 (V3 m ρ) c]
  funext (i : S50000x128.Idx)
  obtain ⟨p, q, rfl⟩ : ∃ (p : Fin 50000) (q : Fin 128), i = ix2 p q := ⟨i 0, i 1, eq_ix2 i⟩
  rw [Cert.ReferenceIdeal.RRead.v52_apply]
  show Cert.Tgcn.xw2Row (fun k => W3 m ρ c (Proc.devRef .tc main_v43) (ix2 p k)) (fun k => W3 m ρ c (Proc.devRef .tc main_v29) (ix2 p k))
      (W3 m ρ c (Proc.devRef .tc main_v26) (ix2 p (0 : Fin 1))) (fun k => W3 m ρ c (Proc.devRef .tc main_v27) (ix2 (0 : Fin 1) k))
      (fun k q' => W3 m ρ c (Proc.devRef .tc main_arg6) (ix2 k q')) q = _
  rw [W3_v43 m ρ c h, W3_v29, W3_v26, W3_v27, W3_arg6]
  have e26 : W1 m ρ c (Proc.devRef .tc main_v26) (ix2 p (0 : Fin 1))
      = val_main_v13 (F := Ideal) (X m c main_arg1) (X m c main_arg2) (ix1 p) := W1_v26 m ρ c h p
  have e27 : (fun k : Fin 128 => W1 m ρ c (Proc.devRef .tc main_v27) (ix2 (0 : Fin 1) k)) = fun k => X m c main_arg5 (ix1 k) :=
    funext fun k => W1_v27 m ρ c k
  rw [e26, e27]

/-! ## After the third host stretch, and the result -/

theorem W4_v1 : W4 m ρ c (Proc.devRef .tc main_v1) = val_main_v1 (F := Ideal) (X m c main_arg1) :=
  step4 m ρ c main_v1 (by decide) (step3 m ρ c main_v1 (by host_unwritten) (W2_v1 m ρ c))
theorem W4_v3 : W4 m ρ c (Proc.devRef .tc main_v3) = val_main_v3 (F := Ideal) (X m c main_arg1) :=
  step4 m ρ c main_v3 (by decide) (step3 m ρ c main_v3 (by host_unwritten) (W2_v3 m ρ c))
theorem W4_v25 (h : NonNeg m c) :
    W4 m ρ c (Proc.devRef .tc main_v25) = val_main_v29 (F := Ideal) (X m c main_arg1) (X m c main_arg2) :=
  step4 m ρ c main_v25 (by decide) (step3 m ρ c main_v25 (by host_unwritten) (W2_v25 m ρ c h))

/-- The second edge aggregation is the reference's. -/
theorem W5_v58 (h : NonNeg m c) : W5 m ρ c (Proc.devRef .tc main_v58)
    = val_main_v90 (F := Ideal) (X m c main_arg0) (X m c main_arg1) (X m c main_arg2) (X m c main_arg4) (X m c main_arg5) (X m c main_arg6) := by
  show StableHlo.after hostOps2 (W4 m ρ c) (Proc.devRef .tc main_v58) = _
  dsimp only [hostOps2]
  after_results_simp
  rw [W4_v1, W4_v3, W4_v25 m ρ c h, W4_v44 m ρ c h]
  rfl

theorem W5_v44 (h : NonNeg m c) : W5 m ρ c (Proc.devRef .tc main_v44)
    = val_main_v52 (F := Ideal) (X m c main_arg0) (X m c main_arg1) (X m c main_arg2) (X m c main_arg4) (X m c main_arg5) (X m c main_arg6) :=
  step5 m ρ c main_v44 (by host_unwritten) (W4_v44 m ρ c h)
theorem W5_v26 : W5 m ρ c (Proc.devRef .tc main_v26) = W1 m ρ c (Proc.devRef .tc main_v26) :=
  step5 m ρ c main_v26 (by host_unwritten)
    ((W4_arr m ρ c 2).trans (((dat1 (V3 m ρ) c).arrAt_in 2 rfl _).trans ((A_eq1 (V3 m ρ) c 2).trans (W3_v26 m ρ c))))
theorem W5_v28 : W5 m ρ c (Proc.devRef .tc main_v28) = W1 m ρ c (Proc.devRef .tc main_v28) :=
  step5 m ρ c main_v28 (by host_unwritten) (step4 m ρ c main_v28 (by decide) (step3 m ρ c main_v28 (by host_unwritten)
    (step2 m ρ c main_v28 (by decide) rfl)))
theorem W5_arg0 : W5 m ρ c (Proc.devRef .tc main_arg0) = X m c main_arg0 :=
  step5 m ρ c main_arg0 (by host_unwritten) (step4 m ρ c main_arg0 (by decide) (step3 m ρ c main_arg0 (by host_unwritten)
    ((W2_arr m ρ c 0).trans (((dat0 (V1 m ρ) c).arrAt_in 0 rfl _).trans ((A_eq0 (V1 m ρ) c 0).trans (W1_arg0 m ρ c))))))
theorem W5_arg3 : W5 m ρ c (Proc.devRef .tc main_arg3) = X m c main_arg3 :=
  step5 m ρ c main_arg3 (by host_unwritten) (step4 m ρ c main_arg3 (by decide) (step3 m ρ c main_arg3 (by host_unwritten)
    (step2 m ρ c main_arg3 (by decide) (step1 m ρ c main_arg3 (by host_unwritten)))))
theorem W4_arg8 : W4 m ρ c (Proc.devRef .tc main_arg8) = X m c main_arg8 :=
  step4 m ρ c main_arg8 (by decide) (step3 m ρ c main_arg8 (by host_unwritten) (step2 m ρ c main_arg8 (by decide) (step1 m ρ c main_arg8 (by host_unwritten))))
theorem W4_arg9 : W4 m ρ c (Proc.devRef .tc main_arg9) = X m c main_arg9 :=
  step4 m ρ c main_arg9 (by decide) (step3 m ρ c main_arg9 (by host_unwritten) (step2 m ρ c main_arg9 (by decide) (step1 m ρ c main_arg9 (by host_unwritten))))
theorem W4_arg10 : W4 m ρ c (Proc.devRef .tc main_arg10) = X m c main_arg10 :=
  step4 m ρ c main_arg10 (by decide) (step3 m ρ c main_arg10 (by host_unwritten) (step2 m ρ c main_arg10 (by decide) (step1 m ρ c main_arg10 (by host_unwritten))))
theorem W4_arg11 : W4 m ρ c (Proc.devRef .tc main_arg11) = X m c main_arg11 :=
  step4 m ρ c main_arg11 (by decide) (step3 m ρ c main_arg11 (by host_unwritten) (step2 m ρ c main_arg11 (by decide) (step1 m ρ c main_arg11 (by host_unwritten))))
theorem W4_arg12 : W4 m ρ c (Proc.devRef .tc main_arg12) = X m c main_arg12 :=
  step4 m ρ c main_arg12 (by decide) (step3 m ρ c main_arg12 (by host_unwritten) (step2 m ρ c main_arg12 (by decide) (step1 m ρ c main_arg12 (by host_unwritten))))
theorem W4_arg13 : W4 m ρ c (Proc.devRef .tc main_arg13) = X m c main_arg13 :=
  step4 m ρ c main_arg13 (by decide) (step3 m ρ c main_arg13 (by host_unwritten) (step2 m ρ c main_arg13 (by decide) (step1 m ρ c main_arg13 (by host_unwritten))))

/-- A 128 × 128 block of a gate's weight matrix, entry `(k, q)`. -/
theorem W5_v59 (k q : Fin 128) : W5 m ρ c (Proc.devRef .tc main_v59) (ix2 k q) = Cert.Tgcn.wSlice (X m c main_arg8) 0 k q := by
  have e : W5 m ρ c (Proc.devRef .tc main_v59)
      = extractStridedSlice S128x128 ![0, 0] (W4 m ρ c (Proc.devRef .tc main_arg8)) Facts₀.slices_S384x128_S128x128_0_0 := by
    show StableHlo.after hostOps2 (W4 m ρ c) (Proc.devRef .tc main_v59) = _
    dsimp only [hostOps2]
    after_results_simp
  rw [e, W4_arg8]
  exact Cert.KernelIdeal.KLayout.slice0_apply _ k q

/-- A 128 × 128 block of a gate's weight matrix, entry `(k, q)`. -/
theorem W5_v60 (k q : Fin 128) : W5 m ρ c (Proc.devRef .tc main_v60) (ix2 k q) = Cert.Tgcn.wSlice (X m c main_arg8) 1 k q := by
  have e : W5 m ρ c (Proc.devRef .tc main_v60)
      = extractStridedSlice S128x128 ![128, 0] (W4 m ρ c (Proc.devRef .tc main_arg8)) Facts₀.slices_S384x128_S128x128_128_0 := by
    show StableHlo.after hostOps2 (W4 m ρ c) (Proc.devRef .tc main_v60) = _
    dsimp only [hostOps2]
    after_results_simp
  rw [e, W4_arg8]
  exact Cert.KernelIdeal.KLayout.slice1_apply _ k q

/-- A 128 × 128 block of a gate's weight matrix, entry `(k, q)`. -/
theorem W5_v61 (k q : Fin 128) : W5 m ρ c (Proc.devRef .tc main_v61) (ix2 k q) = Cert.Tgcn.wSlice (X m c main_arg8) 2 k q := by
  have e : W5 m ρ c (Proc.devRef .tc main_v61)
      = extractStridedSlice S128x128 ![256, 0] (W4 m ρ c (Proc.devRef .tc main_arg8)) Facts₀.slices_S384x128_S128x128_256_0 := by
    show StableHlo.after hostOps2 (W4 m ρ c) (Proc.devRef .tc main_v61) = _
    dsimp only [hostOps2]
    after_results_simp
  rw [e, W4_arg8]
  exact Cert.KernelIdeal.KLayout.slice2_apply _ k q

/-- A 128 × 128 block of a gate's weight matrix, entry `(k, q)`. -/
theorem W5_v62 (k q : Fin 128) : W5 m ρ c (Proc.devRef .tc main_v62) (ix2 k q) = Cert.Tgcn.wSlice (X m c main_arg10) 0 k q := by
  have e : W5 m ρ c (Proc.devRef .tc main_v62)
      = extractStridedSlice S128x128 ![0, 0] (W4 m ρ c (Proc.devRef .tc main_arg10)) Facts₀.slices_S384x128_S128x128_0_0 := by
    show StableHlo.after hostOps2 (W4 m ρ c) (Proc.devRef .tc main_v62) = _
    dsimp only [hostOps2]
    after_results_simp
  rw [e, W4_arg10]
  exact Cert.KernelIdeal.KLayout.slice0_apply _ k q

/-- A 128 × 128 block of a gate's weight matrix, entry `(k, q)`. -/
theorem W5_v63 (k q : Fin 128) : W5 m ρ c (Proc.devRef .tc main_v63) (ix2 k q) = Cert.Tgcn.wSlice (X m c main_arg10) 1 k q := by
  have e : W5 m ρ c (Proc.devRef .tc main_v63)
      = extractStridedSlice S128x128 ![128, 0] (W4 m ρ c (Proc.devRef .tc main_arg10)) Facts₀.slices_S384x128_S128x128_128_0 := by
    show StableHlo.after hostOps2 (W4 m ρ c) (Proc.devRef .tc main_v63) = _
    dsimp only [hostOps2]
    after_results_simp
  rw [e, W4_arg10]
  exact Cert.KernelIdeal.KLayout.slice1_apply _ k q

/-- A 128 × 128 block of a gate's weight matrix, entry `(k, q)`. -/
theorem W5_v64 (k q : Fin 128) : W5 m ρ c (Proc.devRef .tc main_v64) (ix2 k q) = Cert.Tgcn.wSlice (X m c main_arg10) 2 k q := by
  have e : W5 m ρ c (Proc.devRef .tc main_v64)
      = extractStridedSlice S128x128 ![256, 0] (W4 m ρ c (Proc.devRef .tc main_arg10)) Facts₀.slices_S384x128_S128x128_256_0 := by
    show StableHlo.after hostOps2 (W4 m ρ c) (Proc.devRef .tc main_v64) = _
    dsimp only [hostOps2]
    after_results_simp
  rw [e, W4_arg10]
  exact Cert.KernelIdeal.KLayout.slice2_apply _ k q

/-- A 128 × 128 block of a gate's weight matrix, entry `(k, q)`. -/
theorem W5_v65 (k q : Fin 128) : W5 m ρ c (Proc.devRef .tc main_v65) (ix2 k q) = Cert.Tgcn.wSlice (X m c main_arg12) 0 k q := by
  have e : W5 m ρ c (Proc.devRef .tc main_v65)
      = extractStridedSlice S128x128 ![0, 0] (W4 m ρ c (Proc.devRef .tc main_arg12)) Facts₀.slices_S384x128_S128x128_0_0 := by
    show StableHlo.after hostOps2 (W4 m ρ c) (Proc.devRef .tc main_v65) = _
    dsimp only [hostOps2]
    after_results_simp
  rw [e, W4_arg12]
  exact Cert.KernelIdeal.KLayout.slice0_apply _ k q

/-- A 128 × 128 block of a gate's weight matrix, entry `(k, q)`. -/
theorem W5_v66 (k q : Fin 128) : W5 m ρ c (Proc.devRef .tc main_v66) (ix2 k q) = Cert.Tgcn.wSlice (X m c main_arg12) 1 k q := by
  have e : W5 m ρ c (Proc.devRef .tc main_v66)
      = extractStridedSlice S128x128 ![128, 0] (W4 m ρ c (Proc.devRef .tc main_arg12)) Facts₀.slices_S384x128_S128x128_128_0 := by
    show StableHlo.after hostOps2 (W4 m ρ c) (Proc.devRef .tc main_v66) = _
    dsimp only [hostOps2]
    after_results_simp
  rw [e, W4_arg12]
  exact Cert.KernelIdeal.KLayout.slice1_apply _ k q

/-- A 128 × 128 block of a gate's weight matrix, entry `(k, q)`. -/
theorem W5_v67 (k q : Fin 128) : W5 m ρ c (Proc.devRef .tc main_v67) (ix2 k q) = Cert.Tgcn.wSlice (X m c main_arg12) 2 k q := by
  have e : W5 m ρ c (Proc.devRef .tc main_v67)
      = extractStridedSlice S128x128 ![256, 0] (W4 m ρ c (Proc.devRef .tc main_arg12)) Facts₀.slices_S384x128_S128x128_256_0 := by
    show StableHlo.after hostOps2 (W4 m ρ c) (Proc.devRef .tc main_v67) = _
    dsimp only [hostOps2]
    after_results_simp
  rw [e, W4_arg12]
  exact Cert.KernelIdeal.KLayout.slice2_apply _ k q

/-- A gate's bias as a row, entry `(0, k)`. -/
theorem W5_v68 (k : Fin 128) : W5 m ρ c (Proc.devRef .tc main_v68) (ix2 (0 : Fin 1) k) = X m c main_arg9 (ix1 k) := by
  have e : W5 m ρ c (Proc.devRef .tc main_v68) = shapeCast S1x128 (W4 m ρ c (Proc.devRef .tc main_arg9)) Facts₀.shapeCasts_S128_S1x128 := by
    show StableHlo.after hostOps2 (W4 m ρ c) (Proc.devRef .tc main_v68) = _
    dsimp only [hostOps2]
    after_results_simp
    rfl
  rw [e, W4_arg9]
  exact Cert.KernelIdeal.KLayout.row_apply _ k

/-- A gate's bias as a row, entry `(0, k)`. -/
theorem W5_v69 (k : Fin 128) : W5 m ρ c (Proc.devRef .tc main_v69) (ix2 (0 : Fin 1) k) = X m c main_arg11 (ix1 k) := by
  have e : W5 m ρ c (Proc.devRef .tc main_v69) = shapeCast S1x128 (W4 m ρ c (Proc.devRef .tc main_arg11)) Facts₀.shapeCasts_S128_S1x128 := by
    show StableHlo.after hostOps2 (W4 m ρ c) (Proc.devRef .tc main_v69) = _
    dsimp only [hostOps2]
    after_results_simp
    rfl
  rw [e, W4_arg11]
  exact Cert.KernelIdeal.KLayout.row_apply _ k

/-- A gate's bias as a row, entry `(0, k)`. -/
theorem W5_v70 (k : Fin 128) : W5 m ρ c (Proc.devRef .tc main_v70) (ix2 (0 : Fin 1) k) = X m c main_arg13 (ix1 k) := by
  have e : W5 m ρ c (Proc.devRef .tc main_v70) = shapeCast S1x128 (W4 m ρ c (Proc.devRef .tc main_arg13)) Facts₀.shapeCasts_S128_S1x128 := by
    show StableHlo.after hostOps2 (W4 m ρ c) (Proc.devRef .tc main_v70) = _
    dsimp only [hostOps2]
    after_results_simp
    rfl
  rw [e, W4_arg13]
  exact Cert.KernelIdeal.KLayout.row_apply _ k

/-- The contents of buffer `b` when the last region is entered (a plain definition, so that rewriting with the
    lemmas below never unfolds the fold of the host operations). -/
def L5 (b : Ref sig .tc) : Buf (Elt Ideal) ((c : Thread nD τ).loc b) := W5 m ρ c (Proc.devRef .tc b)

theorem L5_arg0 : L5 m ρ c main_arg0 = X m c main_arg0 := W5_arg0 m ρ c
theorem L5_arg3 : L5 m ρ c main_arg3 = X m c main_arg3 := W5_arg3 m ρ c
theorem L5_v58 (h : NonNeg m c) : L5 m ρ c main_v58
    = val_main_v90 (F := Ideal) (X m c main_arg0) (X m c main_arg1) (X m c main_arg2) (X m c main_arg4) (X m c main_arg5) (X m c main_arg6) :=
  W5_v58 m ρ c h
theorem L5_v44 (h : NonNeg m c) : L5 m ρ c main_v44
    = val_main_v52 (F := Ideal) (X m c main_arg0) (X m c main_arg1) (X m c main_arg2) (X m c main_arg4) (X m c main_arg5) (X m c main_arg6) :=
  W5_v44 m ρ c h
theorem L5_v26 (h : NonNeg m c) (p : Fin 50000) :
    L5 m ρ c main_v26 (ix2 p (0 : Fin 1)) = val_main_v13 (F := Ideal) (X m c main_arg1) (X m c main_arg2) (ix1 p) := by
  show W5 m ρ c (Proc.devRef .tc main_v26) (ix2 p (0 : Fin 1)) = _
  rw [W5_v26]
  exact W1_v26 m ρ c h p
theorem L5_v28 (k : Fin 128) : L5 m ρ c main_v28 (ix2 (0 : Fin 1) k) = X m c main_arg7 (ix1 k) := by
  show W5 m ρ c (Proc.devRef .tc main_v28) (ix2 (0 : Fin 1) k) = _
  rw [W5_v28]
  exact W1_v28 m ρ c k
theorem L5_v59 (k q : Fin 128) : L5 m ρ c main_v59 (ix2 k q) = Cert.Tgcn.wSlice (X m c main_arg8) 0 k q := W5_v59 m ρ c k q
theorem L5_v60 (k q : Fin 128) : L5 m ρ c main_v60 (ix2 k q) = Cert.Tgcn.wSlice (X m c main_arg8) 1 k q := W5_v60 m ρ c k q
theorem L5_v61 (k q : Fin 128) : L5 m ρ c main_v61 (ix2 k q) = Cert.Tgcn.wSlice (X m c main_arg8) 2 k q := W5_v61 m ρ c k q
theorem L5_v62 (k q : Fin 128) : L5 m ρ c main_v62 (ix2 k q) = Cert.Tgcn.wSlice (X m c main_arg10) 0 k q := W5_v62 m ρ c k q
theorem L5_v63 (k q : Fin 128) : L5 m ρ c main_v63 (ix2 k q) = Cert.Tgcn.wSlice (X m c main_arg10) 1 k q := W5_v63 m ρ c k q
theorem L5_v64 (k q : Fin 128) : L5 m ρ c main_v64 (ix2 k q) = Cert.Tgcn.wSlice (X m c main_arg10) 2 k q := W5_v64 m ρ c k q
theorem L5_v65 (k q : Fin 128) : L5 m ρ c main_v65 (ix2 k q) = Cert.Tgcn.wSlice (X m c main_arg12) 0 k q := W5_v65 m ρ c k q
theorem L5_v66 (k q : Fin 128) : L5 m ρ c main_v66 (ix2 k q) = Cert.Tgcn.wSlice (X m c main_arg12) 1 k q := W5_v66 m ρ c k q
theorem L5_v67 (k q : Fin 128) : L5 m ρ c main_v67 (ix2 k q) = Cert.Tgcn.wSlice (X m c main_arg12) 2 k q := W5_v67 m ρ c k q
theorem L5_v68 (k : Fin 128) : L5 m ρ c main_v68 (ix2 (0 : Fin 1) k) = X m c main_arg9 (ix1 k) := W5_v68 m ρ c k
theorem L5_v69 (k : Fin 128) : L5 m ρ c main_v69 (ix2 (0 : Fin 1) k) = X m c main_arg11 (ix1 k) := W5_v69 m ρ c k
theorem L5_v70 (k : Fin 128) : L5 m ρ c main_v70 (ix2 (0 : Fin 1) k) = X m c main_arg13 (ix1 k) := W5_v70 m ρ c k

/-- THE KERNEL'S RESULT is the reference's last stage of the argument arrays. -/
theorem kernel_value (h : NonNeg m c) : W6 m ρ c (Proc.devRef .tc main_v71)
    = val_main_v137 (F := Ideal) (X m c main_arg0) (X m c main_arg1) (X m c main_arg2) (X m c main_arg3) (X m c main_arg4) (X m c main_arg5) (X m c main_arg6) (X m c main_arg7) (X m c main_arg8) (X m c main_arg9) (X m c main_arg10) (X m c main_arg11) (X m c main_arg12) (X m c main_arg13) := by
  rw [show W6 m ρ c (Proc.devRef .tc main_v71) = (dat2 (V5 m ρ) c).arrAt 18 cfg2.N from W6_arr m ρ c 18,
    Cert.KernelIdeal.KBlocks2.final2 (V5 m ρ) c]
  funext (i : S50000x128.Idx)
  obtain ⟨p, q, rfl⟩ : ∃ (p : Fin 50000) (q : Fin 128), i = ix2 p q := ⟨i 0, i 1, eq_ix2 i⟩
  rw [Cert.ReferenceIdeal.RRead.v137_apply]
  show Cert.Tgcn.outRow (fun k => L5 m ρ c main_arg0 (ix2 p k))
      (Cert.Tgcn.gRow (fun k => L5 m ρ c main_v58 (ix2 p k)) (fun k => L5 m ρ c main_v44 (ix2 p k))
        (L5 m ρ c main_v26 (ix2 p (0 : Fin 1))) (fun k => L5 m ρ c main_v28 (ix2 (0 : Fin 1) k)))
      (fun k => L5 m ρ c main_arg3 (ix2 p k))
      (fun k q' => L5 m ρ c main_v59 (ix2 k q')) (fun k q' => L5 m ρ c main_v60 (ix2 k q')) (fun k q' => L5 m ρ c main_v61 (ix2 k q')) (fun k => L5 m ρ c main_v68 (ix2 (0 : Fin 1) k))
      (fun k q' => L5 m ρ c main_v62 (ix2 k q')) (fun k q' => L5 m ρ c main_v63 (ix2 k q')) (fun k q' => L5 m ρ c main_v64 (ix2 k q')) (fun k => L5 m ρ c main_v69 (ix2 (0 : Fin 1) k))
      (fun k q' => L5 m ρ c main_v65 (ix2 k q')) (fun k q' => L5 m ρ c main_v66 (ix2 k q')) (fun k q' => L5 m ρ c main_v67 (ix2 k q')) (fun k => L5 m ρ c main_v70 (ix2 (0 : Fin 1) k)) q = _
  simp only [L5_arg0, L5_arg3, L5_v58 m ρ c h, L5_v44 m ρ c h, L5_v26 m ρ c h, L5_v28, L5_v59, L5_v60, L5_v61, L5_v62, L5_v63, L5_v64,
    L5_v65, L5_v66, L5_v67, L5_v68, L5_v69, L5_v70, Cert.ReferenceIdeal.RRead.v104_apply, Cert.ReferenceIdeal.RStages.v61_eq]

end Cert.KernelIdeal.KFold

end
-- ==== Proof.RefRun.lean ====
/-
  The reference program's run, read back: every weakly fair execution terminates with the result array at the composed
  function of the argument arrays (named stage by stage in the reading module) and the argument arrays unchanged.
-/
import proofs.«102804_j19628000542754_2_alg».proof.Defs
import proofs.«102804_j19628000542754_2_alg».proof.Proof.Gen.ReferenceIdeal.Read
import proofs.«102804_j19628000542754_2_alg».proof.Proof.Gen.Pre_finite_inputs

noncomputable section

namespace Cert.ReferenceIdeal.RefRun

open Cert.ReferenceIdeal Idealize.ShloMosaic Idealize.ShloMosaic.TcCoe Idealize.SL.Sem

/-- The run of the reference over the extended reals: the result array is the last stage's function of the fourteen
    argument arrays, and each argument array ends as it began. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v137) = Cert.ReferenceIdeal.Read.val_main_v137 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono
    (fun _ h c => ⟨(h c).1.trans (Cert.ReferenceIdeal.Read.val_main_v137_eq m c), (h c).2⟩)
    (Cert.ReferenceIdeal.Value.run (F := Ideal) m ρ)

/-- The reference runs and leaves its argument arrays unchanged. -/
theorem ref_frame : Cert.frame_ReferenceIdeal := fun m ρ _ =>
  (θ_run Cert.ReferenceIdeal.defs _ _).mono (fun _ h c => (h c).2) (Cert.ReferenceIdeal.Value.run (F := Ideal) m ρ)

end Cert.ReferenceIdeal.RefRun

end
-- ==== Proof.lean ====
/-
  A temporal graph-convolution cell on 50000 nodes and 1600000 weighted edges: two graph-convolution layers
  (`agg + d² · xw + b` with `agg` the scatter-add over destination ids of `coef · xw[src]`, `d` the inverse square root
  of the weighted degree `1 + Σ w`), the first followed by `max · 0`, the second by the logistic function, and a gated
  recurrent update `u · h + (1 − u) · tanh(…)` whose three gates multiply the concatenation `[x | g | h]` by a
  384 × 128 matrix. The kernel computes the three matrix stages in three kernel regions over 25 blocks of 2000 rows, the
  gather and scatter-add between them on the host, and each gate as three 128-term products against the three row blocks
  of its matrix; the reference computes everything on whole arrays.

  Over the extended reals, with every change of float format the identity, the two results are equal entry by entry
  whenever no edge id is negative: each region's output block is the corresponding row function of the rows it reads
  (the spec's `rowDot`, `xw2Row`, `outRow`), the blocks tile the arrays, the host operations between the regions are
  the reference's own applied to equal arrays, a 384-term sum is the sum of its three 128-term parts (addition of
  extended reals is commutative and associative: no finiteness is used), and the degree `1 + (0 + Σ w)` scattered over
  the raw destination ids is `1 + Σ w` scattered over the wrapped ids because wrapping a non-negative id changes
  nothing. The three frames are the generated ones; the idealization rewrote nothing.
-/
import proofs.«102804_j19628000542754_2_alg».proof.Defs
import proofs.«102804_j19628000542754_2_alg».proof.Proof.Gen.Kernel
import proofs.«102804_j19628000542754_2_alg».proof.Proof.Gen.Kernel.Frame
import proofs.«102804_j19628000542754_2_alg».proof.Proof.Gen.KernelIdeal
import proofs.«102804_j19628000542754_2_alg».proof.Proof.Gen.KernelIdeal.Frame
import proofs.«102804_j19628000542754_2_alg».proof.Proof.Gen.ReferenceIdeal
import proofs.«102804_j19628000542754_2_alg».proof.Proof.Gen.ReferenceIdeal.Run
import proofs.«102804_j19628000542754_2_alg».proof.Proof.Gen.ReferenceIdeal.Read
import proofs.«102804_j19628000542754_2_alg».proof.Proof.Gen.Pre_finite_inputs
import proofs.«102804_j19628000542754_2_alg».proof.Proof.PreIdx
import proofs.«102804_j19628000542754_2_alg».proof.Proof.KRun
import proofs.«102804_j19628000542754_2_alg».proof.Proof.KFold
import proofs.«102804_j19628000542754_2_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := Cert.ReferenceIdeal.RefRun.ref_frame

/-- The idealization rewrote no operation. -/
theorem preserves : Cert.preserves_Kernel_KernelIdeal := trivial

/-- Both idealized programs end at the reference's last stage of the (agreeing) argument arrays: the kernel by its run
    and the identification of its result buffer's final contents with that stage under the precondition's "no negative
    edge id"; the reference by its run. -/
theorem algebraic : Cert.algebraic_KernelIdeal_ReferenceIdeal := by
  intro m ρ m' ρ' hpre hagree
  refine ⟨fun c => Cert.ReferenceIdeal.Read.val_main_v137 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run Cert.KernelIdeal.defs _ _).mono (fun r h c => ⟨(h c).1.trans ?_, (h c).2⟩)
      (Cert.KernelIdeal.KRun.run_value (F := Ideal) m ρ)
    exact Cert.KernelIdeal.KFold.kernel_value m ρ c
      (Cert.PreIdx.edge_index_nonneg _ _ _ _ _ _ _ _ _ _ _ _ _ _ (hpre c))
  · refine (θ_run Cert.ReferenceIdeal.defs _ _).mono (fun r h c => ⟨(h c).1.trans ?_, (h c).2⟩)
      (Cert.ReferenceIdeal.RefRun.ref_run m' ρ')
    obtain ⟨h0, h1, h2, h3, h4, h5, h6, h7, h8, h9, h10, h11, h12, h13⟩ := hagree c
    rw [h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
